-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S1024x192 : Shape := ⟨2, ![1024, 192]⟩
abbrev S8x2048x64 : Shape := ⟨3, ![8, 2048, 64]⟩
abbrev S1x2048x1024 : Shape := ⟨3, ![1, 2048, 1024]⟩
abbrev S1x2048x64 : Shape := ⟨3, ![1, 2048, 64]⟩
abbrev S2048x192 : Shape := ⟨2, ![2048, 192]⟩
abbrev S2048x1024 : Shape := ⟨2, ![2048, 1024]⟩
abbrev S2048x64 : Shape := ⟨2, ![2048, 64]⟩
abbrev S512x64 : Shape := ⟨2, ![512, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩

abbrev nBuf : Space → Nat
  | .hbm => 6
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S8x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x192, .f32⟩
  | .local _ .vmem, ⟨3, _⟩ => ⟨S1x2048x64, .f32⟩
  | .local _ .vmem, ⟨4, _⟩ => ⟨S1x2048x64, .f32⟩
  | .local _ .vmem, ⟨5, _⟩ => ⟨S2048x192, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v13 : BitVec 32 := Scalar.addi c0_i32 c4_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v14 : BitVec 32 := Scalar.muli arg5 c512_i32
  v14
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v14 : BitVec 32 := Scalar.muli arg5 c512_i32
  let v15 : BitVec 32 := v14
  let v16 : Index := Scalar.indexCast v15
  let c0_9 : Index := 0#32
  ![v16.toNat, 0]
def k0_off2 (k0_t1 : Fin k0_t1_loop.trips) : Fin 3 → Nat :=
  let c0_15 : Index := 0#32
  let c0_i32 : BitVec 32 := 0#32
  let c1_i32 : BitVec 32 := 1#32
  let arg5 : BitVec 32 := Scf.iv c0_i32 c1_i32 k0_t1
  let c512_i32 : BitVec 32 := 512#32
  let v14 : BitVec 32 := Scalar.muli arg5 c512_i32
  let v15 : BitVec 32 := v14
  let v33 : Index := Scalar.indexCast v15
  let c0_16 : Index := 0#32
  ![0, v33.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S1024x64_S1024x64_S1024x64_S1024x192_d1 : Shape.Concatenates [S1024x64, S1024x64, S1024x64] S1024x192 1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  inb_S2048x192_S2048x192_0_0 : ∀ a, (![0, 0] : Fin 2 → Nat) a + S2048x192.size a ≤ S2048x192.size a
  h_S2048x192 : 0 < S2048x192.numel
  shapeCasts_S2048x192_S2048x192 : S2048x192.ShapeCasts S2048x192
  packedbf16_S2048x192_S2048x192_0_0 : (Rect.unit (s := S2048x192) ![0, 0] S2048x192.size inb_S2048x192_S2048x192_0_0).PackedRows (EltTy.packing .bf16)
  inb_S2048x192_S2048x64_0_64 : ∀ a, (![0, 64] : Fin 2 → Nat) a + S2048x64.size a ≤ S2048x192.size a
  h_S2048x64 : 0 < S2048x64.numel
  inb_S2048x192_S2048x64_0_128 : ∀ a, (![0, 128] : Fin 2 → Nat) a + S2048x64.size a ≤ S2048x192.size a
  h_S512x64 : 0 < S512x64.numel
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  h_S1x512x64 : 0 < S1x512x64.numel
  shapeCasts_S1x512x64_S512x64 : S1x512x64.ShapeCasts S512x64
  shapeCasts_S512x64_S1x512x64 : S512x64.ShapeCasts S1x512x64
  dot_S2048x1024_S1024x192_S2048x192_1_0_0_1_n_n_wf : DotDims.WF S2048x1024 S1024x192 S2048x192 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x64.size a ≤ S2048x192.size a
  k0_off2_inb : ∀ k0_t1 : Fin k0_t1_loop.trips, ∀ a, (k0_off2 k0_t1) a + S1x512x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .f32 = 32 ∨ (Rect.block (s := S8x2048x64) S1x2048x64.size (cc0_transform_2 i) (hinb0_2 i)).WholeWords (EltTy.packing .f32)

variable [Facts₀]

def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.LaunchSideB.lean ====
/-
  The launch side of `Kernel`'s one tiled call: what the arrays hold when the call is entered, each
  window's block at a grid point, and how a run of the call gives back the program's frame.

  Before the call the host sets the three weight matrices side by side into one `[1024, 192]` array; nothing else is
  written before the call, so the four argument arrays are found as launched.  The call has three windows: batch
  row-block `b` of `x` (fetched at every point), the whole joined weight array (fetched once), and batch row-block
  `b` of the result (written back at every point).  One scratch array, `[2048, 192]`, belongs to the call.
-/
import proofs.«147144_j2259152797990_2_alg».proof.Proof.Gen.Kernel.Launch
import proofs.«147144_j2259152797990_2_alg».proof.Proof.Gen.Kernel.Skeleton
import proofs.«147144_j2259152797990_2_alg».proof.Proof.Gen.Kernel.Loops
import proofs.«147144_j2259152797990_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- What core `c`'s arrays hold when the call is entered: the launch contents after the one host operation. -/
abbrev V (c : Dev nD) (b : Ref sig .tc) : Buf (Elt F) ((c : Thread nD τ).loc b) := StableHlo.after hostOps0 (fun b => m (c, b)) b

/-- The host operation allocates nothing. -/
theorem hostOps0_fresh : (hostOps0 : List (HloOp τ sig (Elt F))).Forall fun op => op.fresh = ∅ := by
  simp only [List.Forall]; repeat' constructor

/-- The program is the host operation, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes only the joined weight array: `x` is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    exact StableHlo.devRef_ne_of_ne (by decide)))
/-- Likewise the query weights. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    exact StableHlo.devRef_ne_of_ne (by decide)))
/-- Likewise the key weights. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    exact StableHlo.devRef_ne_of_ne (by decide)))
/-- Likewise the value weights. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of `x`'s window holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the joined weights' window, which is fetched once: its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the call -/

/-- A run of the program to the call's post — every windowed array at what the proof data computes, every other
    unscoped array as the call found it — leaves the four argument arrays as launched: `x` is a staged input, the
    three weight matrices are staged by no window, and none of them is written before the call. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's memrefs -/

/-- One staging buffer of the result's window, through which its contents are stated. -/
abbrev VO0_2 : View sig .tc .vmem S1x2048x64 .f32 := (Memref.whole cc0_stg2_0 : Memref sig .tc .vmem S1x2048x64 .f32).view
/-- Each window's current staging memref at point `t`, as the call passes it to the body, and its wholeness. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x64 .f32 := win0_2.stage (cfg0.slots t 2)
abbrev hs0_2 (t : Fin cfg0.N) : (ms0_2 t).IsWhole := hstage0_2 ((cfg0.slots t 2).cast nbuf0_2)
/-- The scratch array, a whole buffer of the call's own. -/
abbrev scM0_0 : Memref sig .tc .vmem S2048x192 .bf16 := Memref.whole cc0_scratch0

/-- The call's invariant is the scratch array owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.BodyRunB.lean ====
/-
  The body of `Kernel`'s tiled call, run once on any whole staging memrefs.

  The body reads its block of `x` and the joined weights, stores their product (rounded to the scratch's format) over
  the whole scratch, reads the key and value columns back, and then, for each of four tiles of 512 query rows, reads
  the tile's query columns, computes the tile's attended rows and stores them into rows `512·k … 512·k+511` of the
  result's block.  What is recorded here is the list of pieces the result's buffer ends with (found by running the
  body symbolically; the loop goes through by its invariant, one symbolic trip), together with the statement that the
  body runs, faults nowhere, leaves both inputs as they were and hands the scratch back at some contents.
-/
import proofs.«147144_j2259152797990_2_alg».proof.Proof.LaunchSideB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the result's staging memref (last first), with the proof that from whole staging
    memrefs — the inputs' at their contents, the result's and the scratch at anything — the body runs to the
    continuation holding the inputs' as they were, the scratch at some contents and the result's buffer with those
    pieces written. -/
noncomputable def kernelRun0_A (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x192 .bf16) (harg4 : arg4.IsWhole)
    (x0 : Vec F S1x2048x1024 .f32) (x1 : Vec F S1024x192 .f32) :
    { L2 : List (View.Piece (Elt F) S1x2048x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ d, owns (c : Thread nD τ) arg4 fullShare d)) -∗ K ⟨⟩))
          ⊢ wp frame (wpE (defs₀ (F := F)) Variants.none c none) E (cc0__fused_kernel i arg1 harg1 arg2 harg2 arg3 harg3 arg4 harg4) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _, _; isplitr; swap; · iexact HS0
    ipureintro; rfl

end Cert.Kernel.Fr

end
-- ==== Proof.FrameB.lean ====
/-
  The frame of `Kernel`: the program runs to the end, faults nowhere, and leaves its four argument arrays unchanged.

  The body's pieces tile the result's block (four stores of 512 rows each), so after the body the result's staging
  buffer is a function of the two input blocks alone (`out0_A_2`); the inputs' buffers are left as found and the
  scratch is handed back.  That is the call's obligation at every grid point; the launch theorem turns it into a run
  of the whole program, and the run's post gives the frame.
-/
import proofs.«147144_j2259152797990_2_alg».proof.Proof.BodyRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's pieces for the result tile its block: four stores of `[1, 512, 64]`. -/
theorem cover0_A_2 (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x192 .bf16) (harg4 : arg4.IsWhole)
    (x0 : Vec F S1x2048x1024 .f32) (x1 : Vec F S1024x192 .f32) (y : S1x2048x64.Idx) :
    ∃ pc ∈ (kernelRun0_A c i arg1 harg1 arg2 harg2 arg3 harg3 arg4 harg4 x0 x1).1, y ∈ pc.1.set :=
  View.cover_of_tiledL (kernelRun0_A c i arg1 harg1 arg2 harg2 arg3 harg3 arg4 harg4 x0 x1).1 S1x512x64.size (by sl_kernel_rfl) y

/-- What the body leaves in the result's staging buffer: its pieces read back over anything. -/
def out0_A_2 (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x192 .bf16) (harg4 : arg4.IsWhole)
    (x0 : Vec F S1x2048x1024 .f32) (x1 : Vec F S1024x192 .f32) : Vec F S1x2048x64 .f32 :=
  VO0_2.read (Elt F) (VO0_2.writes (Elt F) VO0_2.junk (kernelRun0_A c i arg1 harg1 arg2 harg2 arg3 harg3 arg4 harg4 x0 x1).1)

/-- What the result's staging buffer holds after the body at point `t`. -/
def outsAt0 (c : Dev nD) (t : Fin cfg0.N) : Vec F S1x2048x64 .f32 :=
  out0_A_2 c (grid0.coords t) (ms0_0 t) (hs0_0 t) (ms0_1 t) (hs0_1 t) (ms0_2 t) (hs0_2 t) scM0_0 (Memref.isWhole_whole _) (iblk m c 0 t) (iblk m c 1 t)

/-! ## The call's proof data -/

/-- The arrays as the call finds them; after the body each input's buffer at its block and the result's at
    `outsAt0`; the invariant the scratch and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant hands the body
    the scratch at some contents and takes it back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  unfold outsAt0
  unfold out0_A_2
  iintro ⟨⟨HS0, Hg⟩, Ho, ⟨%d0, H0⟩, ⟨%d1, H1⟩, ⟨%d2, H2⟩⟩
  iapply ((kernelRun0_A c (grid0.coords t) _ _ _ _ _ _ _ _ (iblk m c 0 t) (iblk m c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 Hg]
  · isplitl [HS0]
    · iexact HS0
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _ _ _)

/-- The call's obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every windowed array at what the proof data computes and every other unscoped array as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs, faults nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.LaunchSideI.lean ====
/-
  The launch side of `KernelIdeal`'s one tiled call: what the arrays hold when the call is entered, each
  window's block at a grid point, and how a run of the call gives back the program's frame.

  Before the call the host sets the three weight matrices side by side into one `[1024, 192]` array; nothing else is
  written before the call, so the four argument arrays are found as launched.  The call has three windows: batch
  row-block `b` of `x` (fetched at every point), the whole joined weight array (fetched once), and batch row-block
  `b` of the result (written back at every point).  One scratch array, `[2048, 192]`, belongs to the call.
-/
import proofs.«147144_j2259152797990_2_alg».proof.Proof.Gen.KernelIdeal.Launch
import proofs.«147144_j2259152797990_2_alg».proof.Proof.Gen.KernelIdeal.Skeleton
import proofs.«147144_j2259152797990_2_alg».proof.Proof.Gen.KernelIdeal.Loops
import proofs.«147144_j2259152797990_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- What core `c`'s arrays hold when the call is entered: the launch contents after the one host operation. -/
abbrev V (c : Dev nD) (b : Ref sig .tc) : Buf (Elt F) ((c : Thread nD τ).loc b) := StableHlo.after hostOps0 (fun b => m (c, b)) b

/-- The host operation allocates nothing. -/
theorem hostOps0_fresh : (hostOps0 : List (HloOp τ sig (Elt F))).Forall fun op => op.fresh = ∅ := by
  simp only [List.Forall]; repeat' constructor

/-- The program is the host operation, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes only the joined weight array: `x` is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    exact StableHlo.devRef_ne_of_ne (by decide)))
/-- Likewise the query weights. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    exact StableHlo.devRef_ne_of_ne (by decide)))
/-- Likewise the key weights. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    exact StableHlo.devRef_ne_of_ne (by decide)))
/-- Likewise the value weights. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of `x`'s window holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the joined weights' window, which is fetched once: its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the call -/

/-- A run of the program to the call's post — every windowed array at what the proof data computes, every other
    unscoped array as the call found it — leaves the four argument arrays as launched: `x` is a staged input, the
    three weight matrices are staged by no window, and none of them is written before the call. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's memrefs -/

/-- One staging buffer of the result's window, through which its contents are stated. -/
abbrev VO0_2 : View sig .tc .vmem S1x2048x64 .f32 := (Memref.whole cc0_stg2_0 : Memref sig .tc .vmem S1x2048x64 .f32).view
/-- Each window's current staging memref at point `t`, as the call passes it to the body, and its wholeness. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x64 .f32 := win0_2.stage (cfg0.slots t 2)
abbrev hs0_2 (t : Fin cfg0.N) : (ms0_2 t).IsWhole := hstage0_2 ((cfg0.slots t 2).cast nbuf0_2)
/-- The scratch array, a whole buffer of the call's own. -/
abbrev scM0_0 : Memref sig .tc .vmem S2048x192 .bf16 := Memref.whole cc0_scratch0

/-- The call's invariant is the scratch array owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.BodyRunI.lean ====
/-
  The body of `KernelIdeal`'s tiled call, run once on any whole staging memrefs.

  The body reads its block of `x` and the joined weights, stores their product (rounded to the scratch's format) over
  the whole scratch, reads the key and value columns back, and then, for each of four tiles of 512 query rows, reads
  the tile's query columns, computes the tile's attended rows and stores them into rows `512·k … 512·k+511` of the
  result's block.  What is recorded here is the list of pieces the result's buffer ends with (found by running the
  body symbolically; the loop goes through by its invariant, one symbolic trip), together with the statement that the
  body runs, faults nowhere, leaves both inputs as they were and hands the scratch back at some contents.
-/
import proofs.«147144_j2259152797990_2_alg».proof.Proof.LaunchSideI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the result's staging memref (last first), with the proof that from whole staging
    memrefs — the inputs' at their contents, the result's and the scratch at anything — the body runs to the
    continuation holding the inputs' as they were, the scratch at some contents and the result's buffer with those
    pieces written. -/
noncomputable def kernelRun0_A (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x192 .bf16) (harg4 : arg4.IsWhole)
    (x0 : Vec F S1x2048x1024 .f32) (x1 : Vec F S1024x192 .f32) :
    { L2 : List (View.Piece (Elt F) S1x2048x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ d, owns (c : Thread nD τ) arg4 fullShare d)) -∗ K ⟨⟩))
          ⊢ wp frame (wpE (defs₀ (F := F)) Variants.none c none) E (cc0__fused_kernel i arg1 harg1 arg2 harg2 arg3 harg3 arg4 harg4) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _, _; isplitr; swap; · iexact HS0
    ipureintro; rfl

end Cert.KernelIdeal.Fr

end
-- ==== Proof.FrameI.lean ====
/-
  The frame of `KernelIdeal`: the program runs to the end, faults nowhere, and leaves its four argument arrays unchanged.

  The body's pieces tile the result's block (four stores of 512 rows each), so after the body the result's staging
  buffer is a function of the two input blocks alone (`out0_A_2`); the inputs' buffers are left as found and the
  scratch is handed back.  That is the call's obligation at every grid point; the launch theorem turns it into a run
  of the whole program, and the run's post gives the frame.
-/
import proofs.«147144_j2259152797990_2_alg».proof.Proof.BodyRunI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's pieces for the result tile its block: four stores of `[1, 512, 64]`. -/
theorem cover0_A_2 (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x192 .bf16) (harg4 : arg4.IsWhole)
    (x0 : Vec F S1x2048x1024 .f32) (x1 : Vec F S1024x192 .f32) (y : S1x2048x64.Idx) :
    ∃ pc ∈ (kernelRun0_A c i arg1 harg1 arg2 harg2 arg3 harg3 arg4 harg4 x0 x1).1, y ∈ pc.1.set :=
  View.cover_of_tiledL (kernelRun0_A c i arg1 harg1 arg2 harg2 arg3 harg3 arg4 harg4 x0 x1).1 S1x512x64.size (by sl_kernel_rfl) y

/-- What the body leaves in the result's staging buffer: its pieces read back over anything. -/
def out0_A_2 (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x192 .bf16) (harg4 : arg4.IsWhole)
    (x0 : Vec F S1x2048x1024 .f32) (x1 : Vec F S1024x192 .f32) : Vec F S1x2048x64 .f32 :=
  VO0_2.read (Elt F) (VO0_2.writes (Elt F) VO0_2.junk (kernelRun0_A c i arg1 harg1 arg2 harg2 arg3 harg3 arg4 harg4 x0 x1).1)

/-- What the result's staging buffer holds after the body at point `t`. -/
def outsAt0 (c : Dev nD) (t : Fin cfg0.N) : Vec F S1x2048x64 .f32 :=
  out0_A_2 c (grid0.coords t) (ms0_0 t) (hs0_0 t) (ms0_1 t) (hs0_1 t) (ms0_2 t) (hs0_2 t) scM0_0 (Memref.isWhole_whole _) (iblk m c 0 t) (iblk m c 1 t)

/-! ## The call's proof data -/

/-- The arrays as the call finds them; after the body each input's buffer at its block and the result's at
    `outsAt0`; the invariant the scratch and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant hands the body
    the scratch at some contents and takes it back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  unfold outsAt0
  unfold out0_A_2
  iintro ⟨⟨HS0, Hg⟩, Ho, ⟨%d0, H0⟩, ⟨%d1, H1⟩, ⟨%d2, H2⟩⟩
  iapply ((kernelRun0_A c (grid0.coords t) _ _ _ _ _ _ _ _ (iblk m c 0 t) (iblk m c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 Hg]
  · isplitl [HS0]
    · iexact HS0
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _ _ _)

/-- The call's obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every windowed array at what the proof data computes and every other unscoped array as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs, faults nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.RunPieces.lean ====
/-
  What the body's run leaves in the result's buffer, named.

  After the body's first store the scratch holds the projected rows `scr x0 x1` (the block of `x` times the joined
  weights).  The key columns are its columns 64…127, the value columns its columns 128…191, both read back whole;
  trip `k` of the loop reads rows `512·k … 512·k+511` of columns 0…63 (the tile's queries) and stores ONE piece:
  the tile's attended rows, at rows `512·k …` of the result's block.  The body's piece list is the list of those four
  pieces.
-/
import proofs.«147144_j2259152797990_2_alg».proof.Proof.FrameI
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The projected rows: what the scratch holds after the body's first store. -/
def scr (x0 : Vec F S1x2048x1024 .f32) (x1 : Vec F S1024x192 .f32) : FVec F S2048x192 .bf16 := k0_pay1 x0 x1

/-- The key columns read back: columns 64…127 of the projected rows. -/
def keyCols (x0 : Vec F S1x2048x1024 .f32) (x1 : Vec F S1024x192 .f32) : Vec F S2048x64 .bf16 :=
  fun j => scr x0 x1 ((Rect.unit (s := S2048x192) ![0, 64] S2048x64.size inb_S2048x192_S2048x64_0_64).toLoadRect.idx j)

/-- The value columns read back: columns 128…191 of the projected rows. -/
def valCols (x0 : Vec F S1x2048x1024 .f32) (x1 : Vec F S1024x192 .f32) : Vec F S2048x64 .bf16 :=
  fun j => scr x0 x1 ((Rect.unit (s := S2048x192) ![0, 128] S2048x64.size inb_S2048x192_S2048x64_0_128).toLoadRect.idx j)

/-- The scratch buffer's contents during the loop: the projected rows stored whole over anything. -/
def scrBuf (arg4 : Memref sig .tc .vmem S2048x192 .bf16) (x0 : Vec F S1x2048x1024 .f32) (x1 : Vec F S1024x192 .f32) :
    BufTy.Contents (Elt F) arg4.view.ty :=
  arg4.view.writes (Elt F) arg4.view.junk [⟨Rect.unit (s := S2048x192) ![0, 0] S2048x192.size inb_S2048x192_S2048x192_0_0, scr x0 x1⟩]

/-- The tile's query rows, as trip `k` loads them: rows `512·k …`, columns 0…63 of the projected rows. -/
def qryTile (x0 : Vec F S1x2048x1024 .f32) (x1 : Vec F S1024x192 .f32) (k : Fin k0_t1_loop.trips) : Vec F S512x64 .bf16 :=
  fun j => scr x0 x1 ((Rect.unit (s := S2048x192) (k0_off1 k) S512x64.size (k0_off1_inb k)).toLoadRect.idx j)

/-- The loop runs four trips. -/
theorem trips_eq : k0_t1_loop.trips = 4 := by decide

/-- The body's pieces are the loop's: the pieces of all its trips, over the key and value columns and the scratch
    as the first store left them. -/
theorem run_pieces (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x192 .bf16) (harg4 : arg4.IsWhole)
    (x0 : Vec F S1x2048x1024 .f32) (x1 : Vec F S1024x192 .f32) :
    (kernelRun0_A c i arg1 harg1 arg2 harg2 arg3 harg3 arg4 harg4 x0 x1).1
      = pb_k0_t1 Variants.none c none i arg1 harg1 arg2 harg2 arg3 harg3 arg4 harg4 (keyCols x0 x1) (valCols x0 x1) (scrBuf arg4 x0 x1) k0_t1_loop.trips := by
  unfold kernelRun0_A
  dsimp only
  sl_unfold_run_names
  unfold keyCols valCols scrBuf scr
  simp only [View.readCov_eq_canon', View.canon_unit_zero (S := S2048x192) hz2, View.readAt_eq_ld, harg1.read_unread, harg2.read_unread,
    View.ld_unit_zero (S := S1x2048x1024) hz3, View.ld_unit_zero (S := S1024x192) hz2]
  rfl

/-- Trip `k` stores one piece: at rows `512·k …` of the result's block, the tile payload of the key columns, the value
    columns and the tile's query rows as loaded from the scratch. -/
theorem trip_piece (𝒱 : Variants) (c : Dev nD) (bd : Option 𝒱.V) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x192 .bf16) (harg4 : arg4.IsWhole) (v11 : Vec F S2048x64 .bf16) (v12 : Vec F S2048x64 .bf16) (X_arg4 : BufTy.Contents (Elt F) arg4.view.ty) (k : Fin k0_t1_loop.trips) :
    tripL_k0_t1 (F := F) 𝒱 c bd i arg1 harg1 arg2 harg2 arg3 harg3 arg4 harg4 v11 v12 X_arg4 k
      = [⟨Rect.unit (s := S1x2048x64) (k0_off2 k) S1x512x64.size (k0_off2_inb k),
          k0_pay2 v11 v12 (View.readAt (Elt F) arg4.view (Rect.unit (s := S2048x192) (k0_off1 k) S512x64.size (k0_off1_inb k)).toLoadRect X_arg4)⟩] := by
  unfold tripL_k0_t1 trip_k0_t1
  rfl

/-- A tile's query rows loaded from the scratch are rows of the projected rows. -/
theorem load_tile (arg4 : Memref sig .tc .vmem S2048x192 .bf16) (x0 : Vec F S1x2048x1024 .f32) (x1 : Vec F S1024x192 .f32) (k : Fin k0_t1_loop.trips) :
    View.readAt (Elt F) arg4.view (Rect.unit (s := S2048x192) (k0_off1 k) S512x64.size (k0_off1_inb k)).toLoadRect (scrBuf arg4 x0 x1) = qryTile x0 x1 k := by
  unfold scrBuf qryTile
  rw [View.readAt_writes_junk_eq_canon, View.canon_unit_zero (S := S2048x192) hz2]
  rfl

end Cert.KernelIdeal.Fr

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«147144_j2259152797990_2_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.Attention.lean ====
/-
  One head of softmax attention on the extended reals, as a function of its rows.

  A query row `q` (64 entries) meets 2048 key rows `kk s` and 2048 value rows `vv s`.  The score of key `s` is the
  inner product `∑ e, q e · kk s e` times the scale 1/8; the row's top is the maximum of the scores (started from −∞);
  the weight of key `s` is `exp (score s − top)`.  The attended row is the weighted sum of the value rows divided by the
  sum of the weights (`attend`): the sum is taken first and the quotient last.  The same row with the quotient taken
  first — each weight divided by the sum of the weights, then the weighted sum of the value rows (`attendEach`) — is the
  textbook softmax followed by a matrix product.  The two agree when every entry is a real number: the sum of the
  weights is then a positive real (the top score itself contributes `exp 0 = 1`), and a division by a nonzero real
  distributes over a finite sum of reals (`attendEach_eq_attend`).

  The whole head: with `x : [8, 2048, 1024]` and weight matrices `wq wk wv : [1024, 64]`, a projected row is
  `proj x w b t d = ∑ c, x (b, t, c) · w (c, d)`, and `out x wq wk wv (b, t, d)` is the attended row of query
  `proj x wq b t` against keys `proj x wk b s` and values `proj x wv b s`, at entry `d`.
-/
import Idealize.ShloMosaic.PureOps.Ideal
import Idealize.ShloMosaic.Lib.ValueIdx

noncomputable section

open scoped BigOperators

namespace Cert.Attn

open Idealize.ShloMosaic Idealize.ShloMosaic.ValueIdx

/-- The scale 1/8, as the binary32 word both programs carry. -/
def scale : EReal := Ideal.ofBits .f32 0x3E000000#32
/-- −∞, the binary32 word both maxima start from. -/
def negInf : EReal := Ideal.ofBits .f32 0xFF800000#32

/-- The score of key row `s` against the query row. -/
def rowScore (q : Fin 64 → EReal) (kk : Fin 2048 → Fin 64 → EReal) (s : Fin 2048) : EReal :=
  (∑ e : Fin 64, q e * kk s e) * scale
/-- The largest score of the row, started from −∞. -/
def rowTop (q : Fin 64 → EReal) (kk : Fin 2048 → Fin 64 → EReal) : EReal :=
  (Finset.univ : Finset (Fin 2048)).fold max negInf (rowScore q kk)
/-- The weight of key row `s`: the exponential of its score less the top. -/
def rowWeight (q : Fin 64 → EReal) (kk : Fin 2048 → Fin 64 → EReal) (s : Fin 2048) : EReal :=
  Ideal.exp (rowScore q kk s - rowTop q kk)
/-- The attended row, sum first and quotient last. -/
def attend (q : Fin 64 → EReal) (kk vv : Fin 2048 → Fin 64 → EReal) (d : Fin 64) : EReal :=
  Ideal.div (∑ s : Fin 2048, rowWeight q kk s * vv s d) (∑ s : Fin 2048, rowWeight q kk s)
/-- The attended row, quotient first (the softmax of the scores) and sum last. -/
def attendEach (q : Fin 64 → EReal) (kk vv : Fin 2048 → Fin 64 → EReal) (d : Fin 64) : EReal :=
  ∑ s : Fin 2048, Ideal.div (rowWeight q kk s) (∑ s' : Fin 2048, rowWeight q kk s') * vv s d

abbrev SX : Shape := ⟨3, ![8, 2048, 1024]⟩
abbrev SW : Shape := ⟨2, ![1024, 64]⟩
abbrev SO : Shape := ⟨3, ![8, 2048, 64]⟩

/-- A projected row: row `t` of batch `b` of `x` times the weight matrix `w`. -/
def proj (x : SX.Idx → EReal) (w : SW.Idx → EReal) (b : Fin 8) (t : Fin 2048) (d : Fin 64) : EReal :=
  ∑ c : Fin 1024, x (ix3 b t c) * w (ix2 c d)

/-- The head's result at `(b, t, d)`. -/
def outAt (x : SX.Idx → EReal) (wq wk wv : SW.Idx → EReal) (b : Fin 8) (t : Fin 2048) (d : Fin 64) : EReal :=
  attend (proj x wq b t) (fun s => proj x wk b s) (fun s => proj x wv b s) d

/-- The head's result as an array. -/
def out (x : SX.Idx → EReal) (wq wk wv : SW.Idx → EReal) : SO.Idx → EReal :=
  fun i => outAt x wq wk wv (i 0) (i 1) (i 2)

theorem out_ix3 (x : SX.Idx → EReal) (wq wk wv : SW.Idx → EReal) (b : Fin 8) (t : Fin 2048) (d : Fin 64) :
    out x wq wk wv (ix3 b t d) = outAt x wq wk wv b t d := rfl

end Cert.Attn

end
-- ==== Proof.PayTile.lean ====
/-
  One query tile of the attention head read at an entry, on the extended reals.

  The tile holds 512 query rows `Q : [512, 64]`; the keys `K : [2048, 64]` and the values `V : [2048, 64]` are whole.
  What the tile stores is computed in six steps, and each step is read here at one entry.

  * the scores: `Q · Kᵀ` (the keys transposed to `[64, 2048]`, a plain matrix product into the zero array) times
    the scale 1/8 spread over the tile. At `(p, s)` this is `(∑ e, Q (p, e) · K (s, e)) · 1/8`: the score of key `s`
    against query row `p`.
  * the top of each row: the maximum along the row from −∞, kept as a column `[512, 1]` and spread back over
    `[512, 2048]`. At `(p, c)`, whatever `c` is, it is the fold of `max` over the scores of row `p`.
  * the weights: the exponential of the scores less the row's top, entry by entry.
  * the sum of each row of weights from 0, kept as a column and spread over `[512, 64]`.
  * the weighted values: the weights times `V` (a plain product into zero; the change of float format before it is
    the identity on extended reals). At `(p, d)`: `∑ s, w (p, s) · V (s, d)`.
  * the quotient of the last two, entry by entry, given a leading unit axis.

  Put together, entry `(0, p, d)` of the stored value is the attended row of query row `p` against all keys and
  values, at `d`, with the sum taken first and the quotient last: `Cert.Attn.attend`.
-/
import proofs.«147144_j2259152797990_2_alg».proof.Proof.Gen.KernelIdeal.Skeleton
import proofs.«147144_j2259152797990_2_alg».proof.Proof.LibPlainDot
import proofs.«147144_j2259152797990_2_alg».proof.Proof.LibRowLayer
import proofs.«147144_j2259152797990_2_alg».proof.Proof.Attention
import Idealize.ShloMosaic.Lib.ValueLayout

noncomputable section

open scoped BigOperators

namespace Cert.KernelIdeal.Pay

open Cert.KernelIdeal Cert.KernelIdeal.Gen Idealize.ShloMosaic Idealize.ShloMosaic.ValueIdx

/-! ## A plain product into zero, for operands of any float format -/

/-- Entry `(p, q)` of a plain `M × K` by `K × N` product into the zero array is `∑ k, l (p, k) · r (k, q)`, whatever the
    float formats of the two operands are (on the extended reals a format carries no information). -/
theorem plainDot_apply {M K N : Nat} {φ₁ φ₂ : FTy} (d : DotDims ⟨2, ![M, K]⟩ ⟨2, ![K, N]⟩ ⟨2, ![M, N]⟩)
    (h : Cert.PlainDot.IsPlain d) (prec : Option ContractPrecision)
    (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (Cert.PlainDot.sum_contr d h l r p q)

/-! ## The stages, named -/

/-- The scaled scores of the tile: `Q · Kᵀ` into zero, times the scale spread over `[512, 2048]`. -/
def scores (k : FVec Ideal S2048x64 .bf16) (q : FVec Ideal S512x64 .bf16) : FVec Ideal S512x2048 .f32 :=
  mulf (matmul dot_S512x64_S64x2048_S512x2048_1_0_0_1_n_n none q
      (transpose S64x2048 [1, 0] k transposes_S2048x64_p1_0_S64x2048) (constant S512x2048 .f32 0x00000000#32))
    (broadcast S512x2048 (Scalar.ofBits .f32 0x3E000000#32))

/-- The top of each row of `sc` from −∞, as a column spread back over `[512, 2048]`. -/
def tops (sc : FVec Ideal S512x2048 .f32) : FVec Ideal S512x2048 .f32 :=
  broadcastTo S512x2048
    (shapeCast S512x1 (multiReduction .maximumf [1] S512 sc 0xFF800000#32 reduces_S512x2048_S512 (.inl rfl) rfl)
      shapeCasts_S512_S512x1)
    broadcasts_S512x1_S512x2048

/-- The weights: the exponential of each entry less its row's top. -/
def weights (sc : FVec Ideal S512x2048 .f32) : FVec Ideal S512x2048 .f32 := exp (subf sc (tops sc))

/-- The sum of each row of `w` from 0, as a column spread over `[512, 64]`. -/
def rowSums (w : FVec Ideal S512x2048 .f32) : FVec Ideal S512x64 .f32 :=
  broadcastTo S512x64
    (shapeCast S512x1 (multiReduction .add [1] S512 w 0x00000000#32 reduces_S512x2048_S512 (.inl rfl) rfl)
      shapeCasts_S512_S512x1)
    broadcasts_S512x1_S512x64

/-- The weights times the values, into zero. -/
def weighted (w : FVec Ideal S512x2048 .f32) (v : FVec Ideal S2048x64 .bf16) : FVec Ideal S512x64 .f32 :=
  matmul dot_S512x2048_S2048x64_S512x64_1_0_0_1_n_n none (truncf .bf16 w bitsLt_bf16_f32) v
    (constant S512x64 .f32 0x00000000#32)

/-- The stored value is the quotient of the weighted values by the row sums of the weights of the scaled scores,
    with a leading unit axis: the generated term, with its stages named. -/
theorem pay2_eq (v11 v12 : Vec Ideal S2048x64 .bf16) (v17 : Vec Ideal S512x64 .bf16) :
    k0_pay2 (F := Ideal) v11 v12 v17
      = shapeCast S1x512x64
          (divf (weighted (weights (scores v11 v17)) v12) (rowSums (weights (scores v11 v17))))
          shapeCasts_S512x64_S1x512x64 := rfl

/-! ## Each stage at an entry -/

/-- The scaled score at `(p, s)` is the score of key row `s` against query row `p`: the product reads the transposed
    keys at `(e, s)`, that is the keys at `(s, e)`. -/
theorem scores_apply (v11 : FVec Ideal S2048x64 .bf16) (v17 : FVec Ideal S512x64 .bf16) (p : Fin 512) (s : Fin 2048) :
    scores v11 v17 (ix2 p s) = Cert.Attn.rowScore (fun e => v17 (ix2 p e)) (fun s e => v11 (ix2 s e)) s :=
  congrArg (· * Cert.Attn.scale)
    ((plainDot_apply dot_S512x64_S64x2048_S512x2048_1_0_0_1_n_n ⟨rfl, rfl, rfl, rfl, rfl, rfl⟩ none v17
        (transpose S64x2048 [1, 0] v11 transposes_S2048x64_p1_0_S64x2048) p s).trans
      (Finset.sum_congr rfl fun e _ =>
        congrArg (v17 (ix2 p e) * ·) (transpose_ix2_apply v11 transposes_S2048x64_p1_0_S64x2048 e s)))

/-- The spread column of tops at `(p, c)` is the fold of `max` from −∞ over row `p`, whatever `c` is. -/
theorem tops_apply (sc : FVec Ideal S512x2048 .f32) (p : Fin 512) (c : Fin 2048) :
    tops sc (ix2 p c) = (Finset.univ : Finset (Fin 2048)).fold max Cert.Attn.negInf (fun k => sc (ix2 p k)) :=
  (Cert.RowLayer.broadcastTo_a1_ab_apply _ broadcasts_S512x1_S512x2048 p c).trans
    ((Cert.RowLayer.shapeCast_a_a1_apply _ shapeCasts_S512_S512x1 p 0).trans
      (Cert.RowLayer.rowMax_apply sc 0xFF800000#32 reduces_S512x2048_S512 (.inl rfl) rfl p))

/-- A weight at `(p, s)`: the exponential of the entry less the top of row `p`. -/
theorem weights_apply (sc : FVec Ideal S512x2048 .f32) (p : Fin 512) (s : Fin 2048) :
    weights sc (ix2 p s)
      = Ideal.exp (sc (ix2 p s) - (Finset.univ : Finset (Fin 2048)).fold max Cert.Attn.negInf (fun k => sc (ix2 p k))) :=
  congrArg (fun m => Ideal.exp (sc (ix2 p s) - m)) (tops_apply sc p s)

/-- The weight of the scaled scores at `(p, s)` is the weight of key row `s` for query row `p`. -/
theorem weights_scores_apply (v11 : FVec Ideal S2048x64 .bf16) (v17 : FVec Ideal S512x64 .bf16) (p : Fin 512) (s : Fin 2048) :
    weights (scores v11 v17) (ix2 p s) = Cert.Attn.rowWeight (fun e => v17 (ix2 p e)) (fun s e => v11 (ix2 s e)) s :=
  (weights_apply (scores v11 v17) p s).trans
    (congrArg₂ (fun a (f : Fin 2048 → EReal) => Ideal.exp (a - (Finset.univ : Finset (Fin 2048)).fold max Cert.Attn.negInf f))
      (scores_apply v11 v17 p s) (funext fun k => scores_apply v11 v17 p k))

/-- The spread column of row sums at `(p, d)` is the sum of row `p`, whatever `d` is: the sum starts from the zero
    word, which is 0. -/
theorem rowSums_apply (w : FVec Ideal S512x2048 .f32) (p : Fin 512) (d : Fin 64) :
    rowSums w (ix2 p d) = ∑ k : Fin 2048, w (ix2 p k) :=
  (Cert.RowLayer.broadcastTo_a1_ab_apply _ broadcasts_S512x1_S512x64 p d).trans
    ((Cert.RowLayer.shapeCast_a_a1_apply _ shapeCasts_S512_S512x1 p 0).trans
      (Cert.RowLayer.rowSum_apply w 0x00000000#32 reduces_S512x2048_S512 (.inl rfl) rfl p))

/-- The weighted values at `(p, d)`: the change of float format is the identity, the product is plain. -/
theorem weighted_apply (w : FVec Ideal S512x2048 .f32) (v : FVec Ideal S2048x64 .bf16) (p : Fin 512) (d : Fin 64) :
    weighted w v (ix2 p d) = ∑ s : Fin 2048, w (ix2 p s) * v (ix2 s d) :=
  plainDot_apply dot_S512x2048_S2048x64_S512x64_1_0_0_1_n_n ⟨rfl, rfl, rfl, rfl, rfl, rfl⟩ none
    (truncf .bf16 w bitsLt_bf16_f32) v p d

/-! ## The tile's stored value at an entry -/

/-- Entry `(0, p, d)` of the tile's stored value is the attended row of query row `p` against all the keys and values,
    at `d`. -/
theorem pay2_apply (v11 v12 : Vec Ideal S2048x64 .bf16) (v17 : Vec Ideal S512x64 .bf16) (p : Fin 512) (d : Fin 64) :
    k0_pay2 (F := Ideal) v11 v12 v17 (ix3 (0 : Fin 1) p d)
      = Cert.Attn.attend (fun e => v17 (ix2 p e)) (fun s e => v11 (ix2 s e)) (fun s e => v12 (ix2 s e)) d := by
  rw [pay2_eq]
  refine (shapeCast_ab_1ab_apply _ shapeCasts_S512x64_S1x512x64 (0 : Fin 1) p d).trans ?_
  show Ideal.div (weighted (weights (scores v11 v17)) v12 (ix2 p d)) (rowSums (weights (scores v11 v17)) (ix2 p d)) = _
  rw [weighted_apply, rowSums_apply]
  exact congrArg₂ Ideal.div
    (Finset.sum_congr rfl fun s _ => congrArg (· * v12 (ix2 s d)) (weights_scores_apply v11 v17 p s))
    (Finset.sum_congr rfl fun s _ => weights_scores_apply v11 v17 p s)

end Cert.KernelIdeal.Pay

end
-- ==== Proof.BlockValue.lean ====
/-
  The body's result block as one function of the projected rows, on the extended reals.

  Row `r` of the result's block is the attended row of query row `r` of the scratch's first 64 columns against the key
  rows (columns 64…127) and the value rows (columns 128…191) of ALL 2048 rows of the scratch.  Each of the four pieces
  the loop stores is a block of that one function: trip `k` stores rows `512·k … 512·k+511`, and its payload at local
  row `p` is the attended row of scratch row `512·k + p`.  Four pieces that tile the block, all blocks of one function:
  the block IS that function.
-/
import proofs.«147144_j2259152797990_2_alg».proof.Proof.RunPieces
import proofs.«147144_j2259152797990_2_alg».proof.Proof.PayTile
import proofs.«147144_j2259152797990_2_alg».proof.Proof.Attention
import Idealize.ShloMosaic.Lib.ValueIdx

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx
open Idealize.SL Idealize.SL.Sem

/-- The query, key and value columns of scratch row `r`. -/
def qcol (e : Fin 64) : Fin 192 := ⟨e.val, by omega⟩
def kcol (e : Fin 64) : Fin 192 := ⟨64 + e.val, by omega⟩
def vcol (e : Fin 64) : Fin 192 := ⟨128 + e.val, by omega⟩

/-- Row `r` of the result's block at entry `d`: the attended row of scratch row `r`. -/
def blockOutAt (x0 : Vec Ideal S1x2048x1024 .f32) (x1 : Vec Ideal S1024x192 .f32) (r : Fin 2048) (d : Fin 64) : EReal :=
  Cert.Attn.attend (fun e => scr x0 x1 (ix2 r (qcol e))) (fun s e => scr x0 x1 (ix2 s (kcol e))) (fun s e => scr x0 x1 (ix2 s (vcol e))) d

/-- The result's block as a function of its index. -/
def blockOut (x0 : Vec Ideal S1x2048x1024 .f32) (x1 : Vec Ideal S1024x192 .f32) : S1x2048x64.Idx → EReal :=
  fun y => blockOutAt x0 x1 (y 1) (y 2)

/-- The key columns read back: entry `(s, e)` is the scratch at `(s, 64 + e)`. -/
theorem key_apply (x0 : Vec Ideal S1x2048x1024 .f32) (x1 : Vec Ideal S1024x192 .f32) (s : Fin 2048) (e : Fin 64) :
    keyCols x0 x1 (ix2 s e) = scr x0 x1 (ix2 s (kcol e)) := by
  unfold keyCols
  refine congrArg (scr x0 x1) (funext fun a => Fin.ext ?_)
  match a with
  | ⟨0, _⟩ => show 0 + 1 * s.val = s.val; omega
  | ⟨1, _⟩ => show 64 + 1 * e.val = 64 + e.val; omega

/-- The value columns read back: entry `(s, e)` is the scratch at `(s, 128 + e)`. -/
theorem val_apply (x0 : Vec Ideal S1x2048x1024 .f32) (x1 : Vec Ideal S1024x192 .f32) (s : Fin 2048) (e : Fin 64) :
    valCols x0 x1 (ix2 s e) = scr x0 x1 (ix2 s (vcol e)) := by
  unfold valCols
  refine congrArg (scr x0 x1) (funext fun a => Fin.ext ?_)
  match a with
  | ⟨0, _⟩ => show 0 + 1 * s.val = s.val; omega
  | ⟨1, _⟩ => show 128 + 1 * e.val = 128 + e.val; omega

/-- Tile `k`'s query rows: entry `(p, e)` is the scratch at `(512·k + p, e)`. -/
theorem qry_apply (x0 : Vec Ideal S1x2048x1024 .f32) (x1 : Vec Ideal S1024x192 .f32) (k : Fin k0_t1_loop.trips) (p : Fin 512) (e : Fin 64)
    (hr : 512 * k.val + p.val < 2048) :
    qryTile x0 x1 k (ix2 p e) = scr x0 x1 (ix2 (⟨512 * k.val + p.val, hr⟩ : Fin 2048) (qcol e)) := by
  unfold qryTile
  refine congrArg (scr x0 x1) (funext fun a => Fin.ext ?_)
  have h := k0_off1_eq k
  match a with
  | ⟨0, _⟩ => show k0_off1 k 0 + 1 * p.val = 512 * k.val + p.val; rw [h]; show 512 * k.val + 1 * p.val = _; omega
  | ⟨1, _⟩ => show k0_off1 k 1 + 1 * e.val = e.val; rw [h]; show 0 + 1 * e.val = _; omega

/-- Trip `k`'s piece is a block of `blockOut`. -/
theorem piece_ok (x0 : Vec Ideal S1x2048x1024 .f32) (x1 : Vec Ideal S1024x192 .f32) (arg4 : Memref sig .tc .vmem S2048x192 .bf16)
    (k : Fin k0_t1_loop.trips) (x : S1x512x64.Idx) :
    k0_pay2 (F := Ideal) (keyCols x0 x1) (valCols x0 x1)
        (View.readAt (Elt Ideal) arg4.view (Rect.unit (s := S2048x192) (k0_off1 k) S512x64.size (k0_off1_inb k)).toLoadRect (scrBuf arg4 x0 x1)) x
      = blockOut x0 x1 ((Rect.unit (s := S1x2048x64) (k0_off2 k) S1x512x64.size (k0_off2_inb k)).emb x) := by
  rw [load_tile]
  obtain ⟨u, p, d, rfl⟩ : ∃ (u : Fin 1) (p : Fin 512) (d : Fin 64), x = ix3 u p d := ⟨x 0, x 1, x 2, eq_ix3 x⟩
  obtain rfl : u = 0 := Subsingleton.elim _ _
  have hk : k.val < 4 := Nat.lt_of_lt_of_le k.isLt (Nat.le_of_eq trips_eq)
  have hr : 512 * k.val + p.val < 2048 := by have := p.isLt; omega
  have h2 := k0_off2_eq k
  have e1 : ((Rect.unit (s := S1x2048x64) (k0_off2 k) S1x512x64.size (k0_off2_inb k)).emb (ix3 (0 : Fin 1) p d)) 1
      = (⟨512 * k.val + p.val, hr⟩ : Fin 2048) := Fin.ext (by
    show k0_off2 k 1 + 1 * p.val = 512 * k.val + p.val; rw [h2]; show 512 * k.val + 1 * p.val = _; omega)
  have e2 : ((Rect.unit (s := S1x2048x64) (k0_off2 k) S1x512x64.size (k0_off2_inb k)).emb (ix3 (0 : Fin 1) p d)) 2
      = d := Fin.ext (by
    show k0_off2 k 2 + 1 * d.val = d.val; rw [h2]; show 0 + 1 * d.val = _; omega)
  rw [pay2_apply]
  show _ = blockOutAt x0 x1 _ _
  rw [show blockOutAt x0 x1 (((Rect.unit (s := S1x2048x64) (k0_off2 k) S1x512x64.size (k0_off2_inb k)).emb (ix3 (0 : Fin 1) p d)) 1)
        (((Rect.unit (s := S1x2048x64) (k0_off2 k) S1x512x64.size (k0_off2_inb k)).emb (ix3 (0 : Fin 1) p d)) 2)
      = blockOutAt x0 x1 (⟨512 * k.val + p.val, hr⟩ : Fin 2048) d from by rw [e1, e2]]
  unfold blockOutAt
  simp only [qry_apply x0 x1 k p _ hr, key_apply, val_apply]

/-- Every piece of the first `n` trips is a block of `blockOut`. -/
theorem pieces_ok (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x192 .bf16) (harg4 : arg4.IsWhole)
    (x0 : Vec Ideal S1x2048x1024 .f32) (x1 : Vec Ideal S1024x192 .f32) :
    ∀ (n : ℕ), n ≤ k0_t1_loop.trips →
      ∀ p ∈ pb_k0_t1 (F := Ideal) Variants.none c none i arg1 harg1 arg2 harg2 arg3 harg3 arg4 harg4 (keyCols x0 x1) (valCols x0 x1) (scrBuf arg4 x0 x1) n,
        ∀ x : p.1.shape.Idx, p.2 x = blockOut x0 x1 (p.1.emb x)
  | 0, _ => by
    intro p hp
    rw [pb_k0_t1.eq_1] at hp
    exact absurd hp List.not_mem_nil
  | n + 1, hn => by
    intro p hp x
    rw [pb_k0_t1_succ (F := Ideal) Variants.none c none i arg1 harg1 arg2 harg2 arg3 harg3 arg4 harg4 (keyCols x0 x1) (valCols x0 x1) (scrBuf arg4 x0 x1) ⟨n, hn⟩, trip_piece] at hp
    rcases List.mem_append.mp hp with h | h
    · obtain rfl := List.mem_singleton.mp h
      exact piece_ok x0 x1 arg4 ⟨n, hn⟩ x
    · exact pieces_ok c i arg1 harg1 arg2 harg2 arg3 harg3 arg4 harg4 x0 x1 n (Nat.le_of_succ_le hn) p h x

/-- THE BODY'S RESULT BLOCK: entry `(0, r, d)` is the attended row of scratch row `r` at `d`. -/
theorem out_block_apply (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x192 .bf16) (harg4 : arg4.IsWhole)
    (x0 : Vec Ideal S1x2048x1024 .f32) (x1 : Vec Ideal S1024x192 .f32) (r : Fin 2048) (d : Fin 64) :
    out0_A_2 (F := Ideal) c i arg1 harg1 arg2 harg2 arg3 harg3 arg4 harg4 x0 x1 (ix3 (0 : Fin 1) r d) = blockOutAt x0 x1 r d := by
  unfold out0_A_2
  rw [View.read_writes_junk_eq_canon]
  have hcov := cover0_A_2 (F := Ideal) c i arg1 harg1 arg2 harg2 arg3 harg3 arg4 harg4 x0 x1 (ix3 (0 : Fin 1) r d)
  rw [run_pieces] at hcov ⊢
  exact View.canon_apply_of_pieces (blockOut x0 x1) _
    (pieces_ok c i arg1 harg1 arg2 harg2 arg3 harg3 arg4 harg4 x0 x1 k0_t1_loop.trips le_rfl) (ix3 (0 : Fin 1) r d) hcov

end Cert.KernelIdeal.Fr

end
-- ==== Proof.PayProj.lean ====
/-
  The projection of one batch's rows, read at an entry, on the extended reals.

  The rows of one batch arrive as `x : [1, 2048, 1024]` and the three weight matrices set side by side as
  `w : [1024, 192]`. The stored value drops the leading unit axis of `x`, multiplies the `[2048, 1024]` matrix by `w`
  (a plain product into the zero array) and changes the float format of the operands before and of the result after.
  On the extended reals a change of float format is the identity and a shape cast between equal shapes does nothing,
  so entry `(r, j)` of the stored value is `∑ c, x (0, r, c) · w (c, j)`: row `r` of the batch against column `j` of the
  joined weights.
-/
import proofs.«147144_j2259152797990_2_alg».proof.Proof.Gen.KernelIdeal.Skeleton
import proofs.«147144_j2259152797990_2_alg».proof.Proof.LibPlainDot
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The batch's rows as a matrix: the leading unit axis dropped, the float format changed (the identity here). -/
def rowsOf (x : FVec Ideal S1x2048x1024 .f32) : FVec Ideal S2048x1024 .bf16 :=
  truncf .bf16 (shapeCast S2048x1024 x shapeCasts_S1x2048x1024_S2048x1024) bitsLt_bf16_f32

/-- The joined weights as the product's right operand: a cast to the same shape, the float format changed. -/
def colsOf (w : FVec Ideal S1024x192 .f32) : FVec Ideal S1024x192 .bf16 :=
  truncf .bf16 (shapeCast S1024x192 w shapeCasts_S1024x192_S1024x192) bitsLt_bf16_f32

/-- The stored value is the product of the two into zero, its float format changed and cast to its own shape: the
    generated term, with its operands named. -/
theorem pay1_eq (v0 : Vec Ideal S1x2048x1024 .f32) (v3 : Vec Ideal S1024x192 .f32) :
    k0_pay1 (F := Ideal) v0 v3
      = shapeCast S2048x192
          (truncf .bf16
            (matmul dot_S2048x1024_S1024x192_S2048x192_1_0_0_1_n_n none (rowsOf v0) (colsOf v3)
              (constant S2048x192 .f32 0x00000000#32))
            bitsLt_bf16_f32)
          shapeCasts_S2048x192_S2048x192 := rfl

/-- A row of the batch as a matrix row: entry `(r, c)` reads `x (0, r, c)`. -/
theorem rowsOf_apply (x : FVec Ideal S1x2048x1024 .f32) (r : Fin 2048) (c : Fin 1024) :
    rowsOf x (ix2 r c) = x (ix3 (0 : Fin 1) r c) :=
  shapeCast_1ab_ab_apply x shapeCasts_S1x2048x1024_S2048x1024 r c

/-- The right operand is the joined weights themselves. -/
theorem colsOf_apply (w : FVec Ideal S1024x192 .f32) (c : Fin 1024) (j : Fin 192) :
    colsOf w (ix2 c j) = w (ix2 c j) :=
  congrFun (shapeCast_self w shapeCasts_S1024x192_S1024x192) (ix2 c j)

/-- Entry `(r, j)` of the stored value: row `r` of the batch against column `j` of the joined weights. -/
theorem pay1_apply (v0 : Vec Ideal S1x2048x1024 .f32) (v3 : Vec Ideal S1024x192 .f32) (r : Fin 2048) (j : Fin 192) :
    k0_pay1 (F := Ideal) v0 v3 (ix2 r j) = ∑ c : Fin 1024, v0 (ix3 (0 : Fin 1) r c) * v3 (ix2 c j) := by
  rw [pay1_eq]
  -- the outer cast keeps the shape, the change of format after the product is the identity
  refine (congrFun (shapeCast_self _ shapeCasts_S2048x192_S2048x192) (ix2 r j)).trans ?_
  -- the product into zero is the sum over the contraction index, which for a plain product is the column of the left
  -- operand and the row of the right one
  refine ((Ideal.matmul_constant_zero_apply dot_S2048x1024_S1024x192_S2048x192_1_0_0_1_n_n none (rowsOf v0) (colsOf v3)
      (ix2 r j)).trans
    (Cert.PlainDot.sum_contr dot_S2048x1024_S1024x192_S2048x192_1_0_0_1_n_n ⟨rfl, rfl, rfl, rfl, rfl, rfl⟩
      (rowsOf v0) (colsOf v3) r j)).trans ?_
  exact Finset.sum_congr rfl fun c _ => congrArg₂ (· * ·) (rowsOf_apply v0 r c) (colsOf_apply v3 c j)

end Cert.KernelIdeal.Pay

end
-- ==== Proof.LibJoinedRows.lean ====
/-
  Rows made of two parts, and a few operations read row by row, on the extended reals.

  `joined hC f g` is the row `f` (width `A`) followed by the row `g` (width `B`), indexed by the total width `C = A + B`.
  A sum over a joined row against a row of weights splits into the sum over the first part plus the sum over the
  second part (`sum_append_mul`): this is what makes a product computed as two partial products ("split K") equal to
  the product of the concatenated operand. It uses only commutativity and associativity of addition, so it holds on the
  extended reals without any finiteness assumption. Also here: an entry of a joined row in either part
  (`joined_left`, `joined_right`); two flat arrays concatenated, read at an index (`concat_flat`); a flat array made a
  one-column matrix (`col_apply`); and the logistic, the hyperbolic tangent and the product of tiles read entry by
  entry from a description of their operands by rows (`logistic_rows`, `tanh_rows`, `mul_rows`), for any extents.
-/
import Idealize.ShloMosaic.PureOps.Ideal
import Idealize.ShloMosaic.Lib.ValueIdx
import Idealize.ShloMosaic.Lib.Pipeline.Value
import Idealize.ShloMosaic.Lib.ValueLayout

noncomputable section

open scoped BigOperators

namespace Cert.JoinedRows

open Idealize.ShloMosaic Idealize.ShloMosaic.ValueIdx

/-- A row `f` followed by a row `g`, indexed by the total width. -/
abbrev joined {A B C : Nat} (hC : C = A + B) (f : Fin A → EReal) (g : Fin B → EReal) : Fin C → EReal :=
  fun k => Fin.append f g (Fin.cast hC k)

/-- A sum over a joined row splits: the first part against the first weights plus the second part against the rest. -/
theorem sum_append_mul {A B C : Nat} (hC : C = A + B) (f : Fin A → EReal) (g : Fin B → EReal) (w : Fin C → EReal) :
    ∑ k : Fin C, joined hC f g k * w k
      = (∑ k : Fin A, f k * w ⟨k.val, by omega⟩) + ∑ k : Fin B, g k * w ⟨A + k.val, by omega⟩ := by
  subst hC
  rw [Fin.sum_univ_add]
  congr 1
  · refine Finset.sum_congr rfl fun k _ => ?_
    show Fin.append f g (Fin.castAdd B k) * w (Fin.castAdd B k) = _
    rw [Fin.append_left]
    rfl
  · refine Finset.sum_congr rfl fun k _ => ?_
    show Fin.append f g (Fin.natAdd A k) * w (Fin.natAdd A k) = _
    rw [Fin.append_right]
    rfl

/-- An entry of a joined row in its first part. -/
theorem joined_left {A B C : Nat} (hC : C = A + B) (f : Fin A → EReal) (g : Fin B → EReal) (j : Fin C) (k : Fin A)
    (hj : j.val = k.val) : joined hC f g j = f k := by
  subst hC
  have e : Fin.cast rfl j = Fin.castAdd B k := Fin.ext hj
  show Fin.append f g (Fin.cast rfl j) = f k
  rw [e, Fin.append_left]

/-- An entry of a joined row in its second part. -/
theorem joined_right {A B C : Nat} (hC : C = A + B) (f : Fin A → EReal) (g : Fin B → EReal) (j : Fin C) (k : Fin B)
    (hj : j.val = A + k.val) : joined hC f g j = g k := by
  subst hC
  have e : Fin.cast rfl j = Fin.natAdd A k := Fin.ext hj
  show Fin.append f g (Fin.cast rfl j) = g k
  rw [e, Fin.append_right]

/-- Two flat arrays concatenated: entry `j` is the joined row at `j`. -/
theorem concat_flat {A B C : Nat} (hC : C = A + B) (Y : (⟨1, ![A]⟩ : Shape).Idx → EReal) (Z : (⟨1, ![B]⟩ : Shape).Idx → EReal)
    (h : Shape.Concatenates [(⟨1, ![A]⟩ : Shape), ⟨1, ![B]⟩] ⟨1, ![C]⟩ (0 : Fin 1)) (j : Fin C) :
    concatenate ⟨1, ![C]⟩ (0 : Fin 1) [⟨⟨1, ![A]⟩, Y⟩, ⟨⟨1, ![B]⟩, Z⟩] h (ix1 j)
      = joined hC (fun k => Y (ix1 k)) (fun k => Z (ix1 k)) j := by
  by_cases hj : j.val < A
  · have e1 := concatenate_pair_apply_left (0 : Fin 1) Y Z h (ix1 j) rfl (ix1 ⟨j.val, hj⟩)
      (fun b => by match b with | ⟨0, _⟩ => rfl)
    rw [e1]
    exact (joined_left hC (fun k => Y (ix1 k)) (fun k => Z (ix1 k)) j ⟨j.val, hj⟩ rfl).symm
  · have hjB : j.val - A < B := by have := j.isLt; omega
    have e1 := concatenate_pair_apply_right (0 : Fin 1) Y Z h (ix1 j) rfl rfl (ix1 ⟨j.val - A, hjB⟩)
      (fun b hb => by match b with | ⟨0, _⟩ => exact absurd rfl hb)
      (by show (j.val - A) + A = j.val; omega)
    rw [e1]
    exact (joined_right hC (fun k => Y (ix1 k)) (fun k => Z (ix1 k)) j ⟨j.val - A, hjB⟩ (by show j.val = A + (j.val - A); omega)).symm

/-- A flat array made a one-column matrix reads, at `(r, u)`, the array at `r`. -/
theorem col_apply {α : Type} {a : Nat} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

section Rows
variable {M N : Nat}

/-- The logistic of a tile, entry by entry. -/
theorem logistic_rows (Y : FVec Ideal ⟨2, ![M, N]⟩ .f32) (yr : Fin M → Fin N → EReal) (hY : ∀ p q, Y (ix2 p q) = yr p q) :
    ∀ p q, logistic Y (ix2 p q) = Ideal.logistic (yr p q) := fun p q => congrArg Ideal.logistic (hY p q)

/-- The hyperbolic tangent of a tile, entry by entry. -/
theorem tanh_rows (Y : FVec Ideal ⟨2, ![M, N]⟩ .f32) (yr : Fin M → Fin N → EReal) (hY : ∀ p q, Y (ix2 p q) = yr p q) :
    ∀ p q, tanh Y (ix2 p q) = Ideal.tanh (yr p q) := fun p q => congrArg Ideal.tanh (hY p q)

/-- The product of two tiles, entry by entry. -/
theorem mul_rows (Y Z : FVec Ideal ⟨2, ![M, N]⟩ .f32) (yr zr : Fin M → Fin N → EReal)
    (hY : ∀ p q, Y (ix2 p q) = yr p q) (hZ : ∀ p q, Z (ix2 p q) = zr p q) :
    ∀ p q, mulf Y Z (ix2 p q) = yr p q * zr p q := fun p q => by rw [mulf_apply, hY p q, hZ p q]

end Rows

end Cert.JoinedRows

end
-- ==== Proof.LibThreeParts.lean ====
/-
  Rows made of three parts, on the extended reals.

  `three hD f g h` is the row `f` (width `A`), then `g` (width `B`), then `h` (width `C`), indexed by the total width
  `D = A + B + C`.  Two facts are proved about it, for any extents.

  * `concat3_rows`: three two-axis arrays with the same number of rows, set side by side along the columns, have as
    their row `p` the three rows `p` joined.
  * `sum_three_mul`: a sum over a three-part row against a row of weights is the sum over the first part, plus the sum
    over the second part, plus the sum over the third part, each against its own stretch of the weights.  This is the
    law that makes a product computed as three partial products over three row blocks of the weight matrix equal to the
    one product of the concatenated operand with the whole matrix.  It only regroups a finite sum, so it holds on the
    extended reals with no finiteness assumption.
-/
import proofs.«147144_j2259152797990_2_alg».proof.Proof.LibJoinedRows

noncomputable section

open scoped BigOperators

namespace Cert.ThreeParts

open Idealize.ShloMosaic Idealize.ShloMosaic.ValueIdx Cert.JoinedRows

/-- A row `f`, then a row `g`, then a row `h`, indexed by the total width. -/
abbrev three {A B C D : Nat} (hD : D = A + B + C) (f : Fin A → EReal) (g : Fin B → EReal) (h : Fin C → EReal) :
    Fin D → EReal :=
  joined hD (joined (rfl : A + B = A + B) f g) h

/-- An entry of a three-part row in its first part. -/
theorem three_first {A B C D : Nat} (hD : D = A + B + C) (f : Fin A → EReal) (g : Fin B → EReal) (h : Fin C → EReal)
    (j : Fin D) (k : Fin A) (hj : j.val = k.val) : three hD f g h j = f k := by
  have hk : k.val < A + B := by have := k.isLt; omega
  rw [three, joined_left hD (joined rfl f g) h j ⟨k.val, hk⟩ hj]
  exact joined_left rfl f g ⟨k.val, hk⟩ k rfl

/-- An entry of a three-part row in its second part. -/
theorem three_second {A B C D : Nat} (hD : D = A + B + C) (f : Fin A → EReal) (g : Fin B → EReal) (h : Fin C → EReal)
    (j : Fin D) (k : Fin B) (hj : j.val = A + k.val) : three hD f g h j = g k := by
  have hk : A + k.val < A + B := by have := k.isLt; omega
  rw [three, joined_left hD (joined rfl f g) h j ⟨A + k.val, hk⟩ hj]
  exact joined_right rfl f g ⟨A + k.val, hk⟩ k rfl

/-- An entry of a three-part row in its third part. -/
theorem three_third {A B C D : Nat} (hD : D = A + B + C) (f : Fin A → EReal) (g : Fin B → EReal) (h : Fin C → EReal)
    (j : Fin D) (k : Fin C) (hj : j.val = A + B + k.val) : three hD f g h j = h k :=
  joined_right hD (joined rfl f g) h j k hj

/-- A sum over a three-part row against weights: the three partial sums, each against its own stretch of the weights. -/
theorem sum_three_mul {A B C D : Nat} (hD : D = A + B + C) (f : Fin A → EReal) (g : Fin B → EReal) (h : Fin C → EReal)
    (w : Fin D → EReal) :
    ∑ k : Fin D, three hD f g h k * w k
      = ((∑ k : Fin A, f k * w ⟨k.val, by omega⟩) + ∑ k : Fin B, g k * w ⟨A + k.val, by omega⟩)
        + ∑ k : Fin C, h k * w ⟨A + B + k.val, by omega⟩ := by
  rw [three, sum_append_mul hD (joined rfl f g) h w]
  congr 1
  exact sum_append_mul (rfl : A + B = A + B) f g (fun k => w ⟨k.val, by omega⟩)

/-- Three tiles set side by side along the columns: row `p` of the result is the three rows `p` joined. -/
theorem concat3_rows {M A B C D : Nat} (hD : D = A + B + C)
    (X : (⟨2, ![M, A]⟩ : Shape).Idx → EReal) (Y : (⟨2, ![M, B]⟩ : Shape).Idx → EReal) (Z : (⟨2, ![M, C]⟩ : Shape).Idx → EReal)
    (hc : Shape.Concatenates [(⟨2, ![M, A]⟩ : Shape), ⟨2, ![M, B]⟩, ⟨2, ![M, C]⟩] ⟨2, ![M, D]⟩ (1 : Fin 2))
    (xr : Fin M → Fin A → EReal) (yr : Fin M → Fin B → EReal) (zr : Fin M → Fin C → EReal)
    (hX : ∀ p k, X (ix2 p k) = xr p k) (hY : ∀ p k, Y (ix2 p k) = yr p k) (hZ : ∀ p k, Z (ix2 p k) = zr p k) :
    ∀ (p : Fin M) (j : Fin D),
      concatenate ⟨2, ![M, D]⟩ (1 : Fin 2) [⟨⟨2, ![M, A]⟩, X⟩, ⟨⟨2, ![M, B]⟩, Y⟩, ⟨⟨2, ![M, C]⟩, Z⟩] hc (ix2 p j)
        = three hD (xr p) (yr p) (zr p) j := by
  intro p j
  have hjD := j.isLt
  by_cases h1 : j.val < A
  · rw [concatenate_apply_piece (t := ⟨2, ![M, D]⟩) (1 : Fin 2) ([⟨⟨2, ![M, A]⟩, X⟩, ⟨⟨2, ![M, B]⟩, Y⟩, ⟨⟨2, ![M, C]⟩, Z⟩] : List ((s : Shape) × (s.Idx → EReal))) hc (ix2 p j) 0 (by show (0 : Nat) < 3; omega) ⟨2, ![M, A]⟩ X rfl rfl 0 rfl
      (ix2 p ⟨j.val, h1⟩)
      (fun b hb => by match b with | ⟨0, _⟩ => rfl | ⟨1, _⟩ => exact absurd rfl hb)
      (by show 0 + j.val = j.val; omega)]
    rw [hX]
    exact (three_first hD (xr p) (yr p) (zr p) j ⟨j.val, h1⟩ rfl).symm
  · by_cases h2 : j.val < A + B
    · have hk : j.val - A < B := by omega
      rw [concatenate_apply_piece (t := ⟨2, ![M, D]⟩) (1 : Fin 2) ([⟨⟨2, ![M, A]⟩, X⟩, ⟨⟨2, ![M, B]⟩, Y⟩, ⟨⟨2, ![M, C]⟩, Z⟩] : List ((s : Shape) × (s.Idx → EReal))) hc (ix2 p j) 1 (by show (1 : Nat) < 3; omega) ⟨2, ![M, B]⟩ Y rfl rfl A
        (by show A + 0 = A; rfl) (ix2 p ⟨j.val - A, hk⟩)
        (fun b hb => by match b with | ⟨0, _⟩ => rfl | ⟨1, _⟩ => exact absurd rfl hb)
        (by show A + (j.val - A) = j.val; omega)]
      rw [hY]
      exact (three_second hD (xr p) (yr p) (zr p) j ⟨j.val - A, hk⟩ (by show j.val = A + (j.val - A); omega)).symm
    · have hk : j.val - (A + B) < C := by omega
      rw [concatenate_apply_piece (t := ⟨2, ![M, D]⟩) (1 : Fin 2) ([⟨⟨2, ![M, A]⟩, X⟩, ⟨⟨2, ![M, B]⟩, Y⟩, ⟨⟨2, ![M, C]⟩, Z⟩] : List ((s : Shape) × (s.Idx → EReal))) hc (ix2 p j) 2 (by show (2 : Nat) < 3; omega) ⟨2, ![M, C]⟩ Z rfl rfl (A + B)
        (by show A + (B + 0) = A + B; rfl) (ix2 p ⟨j.val - (A + B), hk⟩)
        (fun b hb => by match b with | ⟨0, _⟩ => rfl | ⟨1, _⟩ => exact absurd rfl hb)
        (by show A + B + (j.val - (A + B)) = j.val; omega)]
      rw [hZ]
      exact (three_third hD (xr p) (yr p) (zr p) j ⟨j.val - (A + B), hk⟩
        (by show j.val = A + B + (j.val - (A + B)); omega)).symm

end Cert.ThreeParts

end
-- ==== Proof.WeightsJoined.lean ====
/-
  The three weight matrices set side by side, read at an entry, on the extended reals.

  Three `[1024, 64]` matrices `a1`, `a2`, `a3` concatenated along the columns make one `[1024, 192]` matrix. Its row `c`
  is the three rows `c` joined, so column `e` of the result (for `e < 64`) is column `e` of `a1`, column `64 + e` is
  column `e` of `a2`, and column `128 + e` is column `e` of `a3`.
-/
import proofs.«147144_j2259152797990_2_alg».proof.Proof.LibThreeParts
import Idealize.ShloMosaic.Lib.ValueIdx

noncomputable section

namespace Cert.KernelIdeal.Pay

open Idealize.ShloMosaic Idealize.ShloMosaic.ValueIdx Cert.ThreeParts

/-- The joined matrix at `(c, j)` is the three-part row made of the rows `c` of the three matrices, at `j`. -/
theorem wqkv_row (a1 a2 a3 : (⟨2, ![1024, 64]⟩ : Shape).Idx → EReal)
    (h : Shape.Concatenates [(⟨2, ![1024, 64]⟩ : Shape), ⟨2, ![1024, 64]⟩, ⟨2, ![1024, 64]⟩] ⟨2, ![1024, 192]⟩ (1 : Fin 2))
    (c : Fin 1024) (j : Fin 192) :
    concatenate ⟨2, ![1024, 192]⟩ (1 : Fin 2) [⟨⟨2, ![1024, 64]⟩, a1⟩, ⟨⟨2, ![1024, 64]⟩, a2⟩, ⟨⟨2, ![1024, 64]⟩, a3⟩] h
        (ix2 c j)
      = three (rfl : 192 = 64 + 64 + 64) (fun k => a1 (ix2 c k)) (fun k => a2 (ix2 c k)) (fun k => a3 (ix2 c k)) j :=
  concat3_rows (rfl : 192 = 64 + 64 + 64) a1 a2 a3 h (fun p k => a1 (ix2 p k)) (fun p k => a2 (ix2 p k))
    (fun p k => a3 (ix2 p k)) (fun _ _ => rfl) (fun _ _ => rfl) (fun _ _ => rfl) c j

/-- The first 64 columns of the joined matrix are the first matrix. -/
theorem wqkv_q (a1 a2 a3 : (⟨2, ![1024, 64]⟩ : Shape).Idx → EReal)
    (h : Shape.Concatenates [(⟨2, ![1024, 64]⟩ : Shape), ⟨2, ![1024, 64]⟩, ⟨2, ![1024, 64]⟩] ⟨2, ![1024, 192]⟩ (1 : Fin 2))
    (c : Fin 1024) (e : Fin 64) :
    concatenate ⟨2, ![1024, 192]⟩ (1 : Fin 2) [⟨⟨2, ![1024, 64]⟩, a1⟩, ⟨⟨2, ![1024, 64]⟩, a2⟩, ⟨⟨2, ![1024, 64]⟩, a3⟩] h
        (ix2 c (⟨e.val, by omega⟩ : Fin 192))
      = a1 (ix2 c e) :=
  (wqkv_row a1 a2 a3 h c _).trans (three_first _ _ _ _ _ e rfl)

/-- Columns 64 to 127 of the joined matrix are the second matrix. -/
theorem wqkv_k (a1 a2 a3 : (⟨2, ![1024, 64]⟩ : Shape).Idx → EReal)
    (h : Shape.Concatenates [(⟨2, ![1024, 64]⟩ : Shape), ⟨2, ![1024, 64]⟩, ⟨2, ![1024, 64]⟩] ⟨2, ![1024, 192]⟩ (1 : Fin 2))
    (c : Fin 1024) (e : Fin 64) :
    concatenate ⟨2, ![1024, 192]⟩ (1 : Fin 2) [⟨⟨2, ![1024, 64]⟩, a1⟩, ⟨⟨2, ![1024, 64]⟩, a2⟩, ⟨⟨2, ![1024, 64]⟩, a3⟩] h
        (ix2 c (⟨64 + e.val, by omega⟩ : Fin 192))
      = a2 (ix2 c e) :=
  (wqkv_row a1 a2 a3 h c _).trans (three_second _ _ _ _ _ e rfl)

/-- Columns 128 to 191 of the joined matrix are the third matrix. -/
theorem wqkv_v (a1 a2 a3 : (⟨2, ![1024, 64]⟩ : Shape).Idx → EReal)
    (h : Shape.Concatenates [(⟨2, ![1024, 64]⟩ : Shape), ⟨2, ![1024, 64]⟩, ⟨2, ![1024, 64]⟩] ⟨2, ![1024, 192]⟩ (1 : Fin 2))
    (c : Fin 1024) (e : Fin 64) :
    concatenate ⟨2, ![1024, 192]⟩ (1 : Fin 2) [⟨⟨2, ![1024, 64]⟩, a1⟩, ⟨⟨2, ![1024, 64]⟩, a2⟩, ⟨⟨2, ![1024, 64]⟩, a3⟩] h
        (ix2 c (⟨128 + e.val, by omega⟩ : Fin 192))
      = a3 (ix2 c e) :=
  (wqkv_row a1 a2 a3 h c _).trans (three_third _ _ _ _ _ e rfl)

end Cert.KernelIdeal.Pay

end
-- ==== Proof.ProjRows.lean ====
/-
  The three column groups of the projected rows are the three projections of the head.

  One batch `b` of the input `X : [8, 2048, 1024]` arrives as a block `x0 : [1, 2048, 1024]` (entry `(0, r, k)` of the
  block is `X (b, r, k)`), and the right operand `x1 : [1024, 192]` is the three weight matrices `a1`, `a2`, `a3`
  (each `[1024, 64]`) set side by side. The stored product has, at `(r, j)`, the sum `∑ c, x0 (0, r, c) · x1 (c, j)`.
  Column `e` of the joined weights is column `e` of `a1`, column `64 + e` is column `e` of `a2` and column `128 + e`
  is column `e` of `a3`; so the three groups of 64 columns of the product are row `r` of batch `b` projected by `a1`,
  by `a2` and by `a3`: the query, key and value rows of the specification.
-/
import proofs.«147144_j2259152797990_2_alg».proof.Proof.PayProj
import proofs.«147144_j2259152797990_2_alg».proof.Proof.WeightsJoined
import proofs.«147144_j2259152797990_2_alg».proof.Proof.Attention

noncomputable section

open scoped BigOperators

namespace Cert.KernelIdeal.Pay

open Cert.KernelIdeal Cert.KernelIdeal.Gen Idealize.ShloMosaic Idealize.ShloMosaic.ValueIdx

/-- Columns 0 to 63 of the projected rows: row `r` of batch `b` times the first weight matrix. -/
theorem proj_q (X : Cert.Attn.SX.Idx → EReal) (a1 a2 a3 : Cert.Attn.SW.Idx → EReal) (b : Fin 8)
    (x0 : Vec Ideal S1x2048x1024 .f32)
    (hx0 : ∀ (r : Fin 2048) (k : Fin 1024), x0 (ix3 (0 : Fin 1) r k) = X (ix3 b r k))
    (x1 : Vec Ideal S1024x192 .f32)
    (hc : Shape.Concatenates [S1024x64, S1024x64, S1024x64] S1024x192 1)
    (hx1 : x1 = concatenate S1024x192 1 [⟨S1024x64, a1⟩, ⟨S1024x64, a2⟩, ⟨S1024x64, a3⟩] hc)
    (r : Fin 2048) (e : Fin 64) :
    k0_pay1 (F := Ideal) x0 x1 (ix2 r (⟨e.val, by omega⟩ : Fin 192)) = Cert.Attn.proj X a1 b r e := by
  subst hx1
  refine (pay1_apply x0 _ r _).trans (Finset.sum_congr rfl fun c _ => ?_)
  exact congrArg₂ (· * ·) (hx0 r c) (wqkv_q a1 a2 a3 hc c e)

/-- Columns 64 to 127 of the projected rows: row `r` of batch `b` times the second weight matrix. -/
theorem proj_k (X : Cert.Attn.SX.Idx → EReal) (a1 a2 a3 : Cert.Attn.SW.Idx → EReal) (b : Fin 8)
    (x0 : Vec Ideal S1x2048x1024 .f32)
    (hx0 : ∀ (r : Fin 2048) (k : Fin 1024), x0 (ix3 (0 : Fin 1) r k) = X (ix3 b r k))
    (x1 : Vec Ideal S1024x192 .f32)
    (hc : Shape.Concatenates [S1024x64, S1024x64, S1024x64] S1024x192 1)
    (hx1 : x1 = concatenate S1024x192 1 [⟨S1024x64, a1⟩, ⟨S1024x64, a2⟩, ⟨S1024x64, a3⟩] hc)
    (r : Fin 2048) (e : Fin 64) :
    k0_pay1 (F := Ideal) x0 x1 (ix2 r (⟨64 + e.val, by omega⟩ : Fin 192)) = Cert.Attn.proj X a2 b r e := by
  subst hx1
  refine (pay1_apply x0 _ r _).trans (Finset.sum_congr rfl fun c _ => ?_)
  exact congrArg₂ (· * ·) (hx0 r c) (wqkv_k a1 a2 a3 hc c e)

/-- Columns 128 to 191 of the projected rows: row `r` of batch `b` times the third weight matrix. -/
theorem proj_v (X : Cert.Attn.SX.Idx → EReal) (a1 a2 a3 : Cert.Attn.SW.Idx → EReal) (b : Fin 8)
    (x0 : Vec Ideal S1x2048x1024 .f32)
    (hx0 : ∀ (r : Fin 2048) (k : Fin 1024), x0 (ix3 (0 : Fin 1) r k) = X (ix3 b r k))
    (x1 : Vec Ideal S1024x192 .f32)
    (hc : Shape.Concatenates [S1024x64, S1024x64, S1024x64] S1024x192 1)
    (hx1 : x1 = concatenate S1024x192 1 [⟨S1024x64, a1⟩, ⟨S1024x64, a2⟩, ⟨S1024x64, a3⟩] hc)
    (r : Fin 2048) (e : Fin 64) :
    k0_pay1 (F := Ideal) x0 x1 (ix2 r (⟨128 + e.val, by omega⟩ : Fin 192)) = Cert.Attn.proj X a3 b r e := by
  subst hx1
  refine (pay1_apply x0 _ r _).trans (Finset.sum_congr rfl fun c _ => ?_)
  exact congrArg₂ (· * ·) (hx0 r c) (wqkv_v a1 a2 a3 hc c e)

end Cert.KernelIdeal.Pay

end
-- ==== Proof.InputBlocks.lean ====
/-
  The two input windows' blocks, read off the arrays as the call finds them.

  The grid is one axis of 8 points.  The first window's block at point t is batch row-block t of `x`: its block index
  is (t, 0, 0) and its block shape [1, 2048, 1024], so its element (0, r, k) is the array's element (t, r, k), and the
  array is `x` as launched (nothing before the call writes it).  The second window's block is the whole joined
  weight array at every point: block index (0, 0), block shape the array's own; and that array is what the one host
  operation before the call wrote, the three weight matrices set side by side along the columns.
-/
import Idealize.ShloMosaic.Lib.Pipeline.Value
import Idealize.ShloMosaic.Lib.ValueIdx
import proofs.«147144_j2259152797990_2_alg».proof.Proof.FrameI

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The block indices of the two input windows, decided over the grid's 8 points. -/
theorem index0_0 (t : Fin cfg0.N) : win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0) t
theorem index0_1 (t : Fin cfg0.N) : win0_1.index t 0 = 0 ∧ win0_1.index t 1 = 0 :=
  (by decide +kernel : ∀ t : Fin grid0.N, win0_1.index t 0 = 0 ∧ win0_1.index t 1 = 0) t

/-- Element (0, r, k) of the first window's block at point t is element (t, r, k) of `x` as launched. -/
theorem iblk0_apply (c : Dev nD) (t : Fin cfg0.N) (r : Fin 2048) (k : Fin 1024) :
    (iblk m c 0 t : Vec F S1x2048x1024 .f32) (ix3 (0 : Fin 1) r k)
      = (m ((c : Thread nD τ).loc main_arg0) : S8x2048x1024.Idx → Elt F .f32)
          (ix3 (⟨t.val, lt_of_lt_of_eq t.isLt N_0⟩ : Fin 8) r k) := by
  obtain ⟨h0, h1, h2⟩ := index0_0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val; rw [h0]; omega
  | ⟨1, _⟩ => show win0_0.index t 1 * 2048 + 1 * r.val = r.val; rw [h1]; omega
  | ⟨2, _⟩ => show win0_0.index t 2 * 1024 + 1 * k.val = k.val; rw [h2]; omega

/-- The joined weight array as the call finds it: the three weight matrices side by side along the columns. -/
theorem V_main_v0 (c : Dev nD) :
    (V m c main_v0 : S1024x192.Idx → Elt F .f32)
      = concatenate S1024x192 1 [⟨S1024x64, m ((c : Thread nD τ).loc main_arg1)⟩, ⟨S1024x64, m ((c : Thread nD τ).loc main_arg2)⟩,
          ⟨S1024x64, m ((c : Thread nD τ).loc main_arg3)⟩] concatenates_S1024x64_S1024x64_S1024x64_S1024x192_d1 := by
  dsimp only [V, hostOps0]
  after_results
  rfl

/-- The second window's block is the whole joined weight array, at every point. -/
theorem iblk1_eq (c : Dev nD) (t : Fin cfg0.N) :
    (iblk m c 1 t : Vec F S1024x192 .f32)
      = concatenate S1024x192 1 [⟨S1024x64, m ((c : Thread nD τ).loc main_arg1)⟩, ⟨S1024x64, m ((c : Thread nD τ).loc main_arg2)⟩,
          ⟨S1024x64, m ((c : Thread nD τ).loc main_arg3)⟩] concatenates_S1024x64_S1024x64_S1024x64_S1024x192_d1 := by
  obtain ⟨h0, h1⟩ := index0_1 t
  have hz : (fun a => win0_1.index t a * main_v0.ty.shape.size a) = fun _ => 0 := funext fun a => by
    match a with
    | ⟨0, _⟩ => show win0_1.index t 0 * 1024 = 0; rw [h0]
    | ⟨1, _⟩ => show win0_1.index t 1 * 192 = 0; rw [h1]
  unfold iblk
  exact (Memref.read_access_unit_zero (Elt F) main_v0 hz (fun a => by rw [congrFun hz a]; simp) (V m c main_v0)).trans
    (V_main_v0 m c)

end Cert.KernelIdeal.Fr

end
-- ==== Proof.PointValue.lean ====
/-
  What the result's staging buffer holds after the body at grid point `t`, as the specification's head.

  At point `t` the body is handed batch row-block `t` of `x` and the three weight matrices set side by side.  The
  scratch's projected rows are then the three projections of batch `t` — columns 0…63 the queries, 64…127 the keys,
  128…191 the values — so row `r` of the result's block is the head's attended row `(t, r)`.
-/
import proofs.«147144_j2259152797990_2_alg».proof.Proof.BlockValue
import proofs.«147144_j2259152797990_2_alg».proof.Proof.ProjRows
import proofs.«147144_j2259152797990_2_alg».proof.Proof.InputBlocks

set_option maxRecDepth 16384

noncomputable section

namespace Cert.KernelIdeal.Fr

open Cert.KernelIdeal Cert.KernelIdeal.Gen Cert.KernelIdeal.Pay
open Idealize.ShloMosaic Idealize.ShloMosaic.TcCoe Idealize.ShloMosaic.ValueIdx
open Idealize.SL Idealize.SL.Sem

/-- For ANY block `x0` that is batch `b` of an array `X` and any `x1` that is three matrices set side by side, the
    attended row of scratch row `r` is the head's attended row `(b, r)`: the scratch's three column groups are the
    three projections. -/
theorem blockOutAt_eq (X : Cert.Attn.SX.Idx → EReal) (a1 a2 a3 : Cert.Attn.SW.Idx → EReal) (b : Fin 8)
    (x0 : Vec Ideal S1x2048x1024 .f32)
    (hx0 : ∀ (r : Fin 2048) (k : Fin 1024), x0 (ix3 (0 : Fin 1) r k) = X (ix3 b r k))
    (x1 : Vec Ideal S1024x192 .f32)
    (hc : Shape.Concatenates [S1024x64, S1024x64, S1024x64] S1024x192 1)
    (hx1 : x1 = concatenate S1024x192 1 [⟨S1024x64, a1⟩, ⟨S1024x64, a2⟩, ⟨S1024x64, a3⟩] hc)
    (r : Fin 2048) (d : Fin 64) :
    blockOutAt x0 x1 r d = Cert.Attn.outAt X a1 a2 a3 b r d := by
  have hq : (fun e : Fin 64 => scr x0 x1 (ix2 r (qcol e))) = Cert.Attn.proj X a1 b r :=
    funext fun e => proj_q X a1 a2 a3 b x0 hx0 x1 hc hx1 r e
  have hk : (fun (s : Fin 2048) (e : Fin 64) => scr x0 x1 (ix2 s (kcol e))) = fun s => Cert.Attn.proj X a2 b s :=
    funext fun s => funext fun e => proj_k X a1 a2 a3 b x0 hx0 x1 hc hx1 s e
  have hv : (fun (s : Fin 2048) (e : Fin 64) => scr x0 x1 (ix2 s (vcol e))) = fun s => Cert.Attn.proj X a3 b s :=
    funext fun s => funext fun e => proj_v X a1 a2 a3 b x0 hx0 x1 hc hx1 s e
  unfold blockOutAt Cert.Attn.outAt
  rw [hq, hk, hv]

variable (m : (ℓ : Loc nD τ sig) → Buf (Elt Ideal) ℓ)

/-- Entry `(0, r, d)` of the result's buffer after the body at point `t` is the head's result at `(t, r, d)`. -/
theorem outsAt0_apply (c : Dev nD) (t : Fin cfg0.N) (r : Fin 2048) (d : Fin 64) :
    (outsAt0 (F := Ideal) m c t : Vec Ideal S1x2048x64 .f32) (ix3 (0 : Fin 1) r d)
      = Cert.Attn.outAt (m ((c : Thread nD τ).loc main_arg0)) (m ((c : Thread nD τ).loc main_arg1)) (m ((c : Thread nD τ).loc main_arg2))
          (m ((c : Thread nD τ).loc main_arg3)) (⟨t.val, lt_of_lt_of_eq t.isLt N_0⟩ : Fin 8) r d := by
  unfold outsAt0
  rw [out_block_apply]
  exact blockOutAt_eq (m ((c : Thread nD τ).loc main_arg0)) (m ((c : Thread nD τ).loc main_arg1)) (m ((c : Thread nD τ).loc main_arg2))
    (m ((c : Thread nD τ).loc main_arg3)) (⟨t.val, lt_of_lt_of_eq t.isLt N_0⟩ : Fin 8) (iblk m c 0 t) (fun r k => iblk0_apply m c t r k)
    (iblk m c 1 t) concatenates_S1024x64_S1024x64_S1024x64_S1024x192_d1 (iblk1_eq m c t) r d

end Cert.KernelIdeal.Fr

end
-- ==== Proof.FinalArray.lean ====
/-
  From the result's blocks to the result array, and the run read at the result.

  The result's window writes back at every one of the grid's 8 points; its block at point t is batch row-block t of
  the result array (block index (t, 0, 0), block shape [1, 2048, 64]), so element (0, r, d) of the block sits at
  (t, r, d) of the array, and the 8 blocks cover the array: entry (b, r, d) is in point b's block.  Hence, if what
  the body leaves in the result's staging buffer at point t is, at (0, r, d), the head's entry (t, r, d), the array
  ends holding the head's result.  The run of the whole program then reads: the result array at the head's result,
  the four argument arrays as launched.
-/
import Idealize.ShloMosaic.Lib.Pipeline.Value
import Idealize.ShloMosaic.Lib.ValueIdx
import proofs.«147144_j2259152797990_2_alg».proof.Proof.FrameI
import proofs.«147144_j2259152797990_2_alg».proof.Proof.Attention

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The block index of the result's window, decided over the grid's 8 points. -/
theorem index0_2 (t : Fin cfg0.N) : win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0) t

section Final

variable (m : (ℓ : Loc nD τ sig) → Buf (Elt Ideal) ℓ) (ρ : Dev nD → PrngReg)

/-- Element (0, r, d) of the result's block at point t sits at (t, r, d) of the result array. -/
theorem blk2_emb (t : Fin cfg0.N) (r : Fin 2048) (d : Fin 64) :
    (((cfg0.win 2).blk t).view.emb (ix3 (0 : Fin 1) r d) : S8x2048x64.Idx)
      = ix3 (⟨t.val, lt_of_lt_of_eq t.isLt N_0⟩ : Fin 8) r d := by
  obtain ⟨h0, h1, h2⟩ := index0_2 t
  funext a
  apply Fin.ext
  match a with
  | ⟨0, _⟩ => show win0_2.index t 0 * 1 + 1 * 0 = t.val; rw [h0]; omega
  | ⟨1, _⟩ => show win0_2.index t 1 * 2048 + 1 * r.val = r.val; rw [h1]; omega
  | ⟨2, _⟩ => show win0_2.index t 2 * 64 + 1 * d.val = d.val; rw [h2]; omega

/-- THE RESULT ARRAY: if every point's block is the head's result there, the array ends holding the head's result. -/
theorem final_out (c : Dev nD)
    (hout : ∀ (t : Fin cfg0.N) (r : Fin 2048) (d : Fin 64),
      (outsAt0 (F := Ideal) m c t : Vec Ideal S1x2048x64 .f32) (ix3 (0 : Fin 1) r d)
        = Cert.Attn.outAt (m ((c : Thread nD τ).loc main_arg0)) (m ((c : Thread nD τ).loc main_arg1))
            (m ((c : Thread nD τ).loc main_arg2)) (m ((c : Thread nD τ).loc main_arg3))
            (⟨t.val, lt_of_lt_of_eq t.isLt N_0⟩ : Fin 8) r d) :
    (dats m 0 c).arrAt 2 cfg0.N
      = Cert.Attn.out (m ((c : Thread nD τ).loc main_arg0)) (m ((c : Thread nD τ).loc main_arg1))
          (m ((c : Thread nD τ).loc main_arg2)) (m ((c : Thread nD τ).loc main_arg3)) := by
  refine (dats m 0 c).arrAt_eq_of_cover 2 _ (fun t _ => ?_) (fun i => ?_)
  · -- what point t writes back is its block of the head's result
    show (cfg0.win 2).cut (grid0.coords t) ((dats m 0 c).after 2 t) = _
    rw [after0_2]
    funext y
    obtain ⟨u, r, d, rfl⟩ : ∃ (u : Fin 1) (r : Fin 2048) (d : Fin 64), y = ix3 u r d := ⟨y 0, y 1, y 2, eq_ix3 y⟩
    obtain rfl : u = 0 := Subsingleton.elim _ _
    rw [View.read_apply]
    show outsAt0 m c t (ix3 (0 : Fin 1) r d)
      = Cert.Attn.out (m ((c : Thread nD τ).loc main_arg0)) (m ((c : Thread nD τ).loc main_arg1))
          (m ((c : Thread nD τ).loc main_arg2)) (m ((c : Thread nD τ).loc main_arg3))
          (((cfg0.win 2).blk t).view.emb (ix3 (0 : Fin 1) r d))
    rw [blk2_emb, Cert.Attn.out_ix3]
    exact hout t r d
  · -- entry (b, r, d) is in point b's block
    obtain ⟨b, r, d, rfl⟩ : ∃ (b : Fin 8) (r : Fin 2048) (d : Fin 64), i = ix3 b r d := ⟨i 0, i 1, i 2, eq_ix3 i⟩
    refine ⟨⟨b.val, lt_of_lt_of_eq b.isLt N_0.symm⟩, flush0_2 _, ?_⟩
    obtain ⟨h0, h1, h2⟩ : win0_2.index (⟨b.val, lt_of_lt_of_eq b.isLt N_0.symm⟩ : Fin cfg0.N) 0 = b.val
        ∧ win0_2.index (⟨b.val, lt_of_lt_of_eq b.isLt N_0.symm⟩ : Fin cfg0.N) 1 = 0
        ∧ win0_2.index (⟨b.val, lt_of_lt_of_eq b.isLt N_0.symm⟩ : Fin cfg0.N) 2 = 0 :=
      index0_2 (⟨b.val, lt_of_lt_of_eq b.isLt N_0.symm⟩ : Fin cfg0.N)
    show ix3 b r d ∈ ((View.whole main_v1).slice (win0_2.rect ⟨b.val, lt_of_lt_of_eq b.isLt N_0.symm⟩)).set
    rw [View.set_slice_whole, Rect.mem_set_unit]
    intro a
    match a with
    | ⟨0, _⟩ =>
      show win0_2.index ⟨b.val, _⟩ 0 * 1 ≤ b.val ∧ b.val < win0_2.index ⟨b.val, _⟩ 0 * 1 + 1
      rw [h0]; omega
    | ⟨1, _⟩ =>
      show win0_2.index ⟨b.val, _⟩ 1 * 2048 ≤ r.val ∧ r.val < win0_2.index ⟨b.val, _⟩ 1 * 2048 + 2048
      rw [h1]; have := r.isLt; omega
    | ⟨2, _⟩ =>
      show win0_2.index ⟨b.val, _⟩ 2 * 64 ≤ d.val ∧ d.val < win0_2.index ⟨b.val, _⟩ 2 * 64 + 64
      rw [h2]; have := d.isLt; omega

/-- THE RUN, READ: the result array ends at the head's result and the four argument arrays as launched. -/
theorem run_out
    (hout : ∀ (c : Dev nD) (t : Fin cfg0.N) (r : Fin 2048) (d : Fin 64),
      (outsAt0 (F := Ideal) m c t : Vec Ideal S1x2048x64 .f32) (ix3 (0 : Fin 1) r d)
        = Cert.Attn.outAt (m ((c : Thread nD τ).loc main_arg0)) (m ((c : Thread nD τ).loc main_arg1))
            (m ((c : Thread nD τ).loc main_arg2)) (m ((c : Thread nD τ).loc main_arg3))
            (⟨t.val, lt_of_lt_of_eq t.isLt N_0⟩ : Fin 8) r d) :
    θ_run defs (onTc (τ := τ) (main (F := Ideal))) ⟨m, fun _ => 0, ρ⟩ fun r => ∀ c : Dev nD,
      r.2.mem ((c : Thread nD τ).loc main_v1)
          = Cert.Attn.out (m ((c : Thread nD τ).loc main_arg0)) (m ((c : Thread nD τ).loc main_arg1))
              (m ((c : Thread nD τ).loc main_arg2)) (m ((c : Thread nD τ).loc main_arg3))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3) :=
  (θ_run defs _ _).mono (fun _ h c =>
    ⟨((h c).1 2).trans (final_out m c (hout c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Final

end Cert.KernelIdeal.Fr

end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.LibRealNorm.lean ====
/-
  Real entries among the extended reals, continued: what a normalisation layer needs beyond sums and products.

  * closure of "is a real number" under negation, subtraction, the exponential, a quotient by a nonzero real, the
    host's sum along axes, and the logistic gate `y · (1 / (1 + exp (−y)))`;
  * a positive normal binary32 pattern denotes a positive real;
  * THE AFFINE LAW of a normalisation: for real `a μ r γ β`,
        a · (γ · r) + (β − μ · (γ · r))  =  (a − μ) · r · γ + β.
    On the extended reals this is false at infinities (the left side distributes a product over a difference), which
    is why every factor is first shown to be a real number.
-/
import Idealize.ShloMosaic.PureOps.Ideal
import Idealize.ShloMosaic.PureOps.Ideal.Laws
import proofs.«147144_j2259152797990_2_alg».proof.Proof.LibRealSum

noncomputable section

namespace Cert.Lib.RealNorm

open Idealize.ShloMosaic Cert.Lib.RealSum

theorem isReal_one : IsReal (1 : EReal) := ⟨1, EReal.coe_one.symm⟩

theorem isReal_neg {x : EReal} (hx : IsReal x) : IsReal (-x) := by
  obtain ⟨a, rfl⟩ := hx; exact ⟨-a, (EReal.coe_neg a).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_exp {x : EReal} (hx : IsReal x) : IsReal (Ideal.exp x) := by
  obtain ⟨a, rfl⟩ := hx; exact ⟨Real.exp a, rfl⟩

/-- A real divided by a nonzero real is a real: the ideal quotient is the product with the reciprocal. -/
theorem isReal_div {x : EReal} (hx : IsReal x) {r : ℝ} (hr : r ≠ 0) : IsReal (Ideal.div x (r : EReal)) := by
  rw [Ideal.div_coe hr]; exact hx.mul (IsReal.coe _)

/-- The host's sum along axes of a real array, from a real initial value, is real at every index. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) := by
  unfold Ideal.hostReduceAdd
  exact hi.add (IsReal.sum _ _ fun i _ => hx i)

/-- The exponential of a real is a positive real, so one plus it is a nonzero real. -/
theorem one_add_exp_neg (a : ℝ) : (1 : EReal) + Ideal.exp (-(a : EReal)) = ((1 + Real.exp (-a) : ℝ) : EReal) := by
  rw [← EReal.coe_neg]; rfl

/-- The logistic gate of a real is a real. -/
theorem isReal_gate {y : EReal} (hy : IsReal y) : IsReal (y * Ideal.div 1 (1 + Ideal.exp (-y))) := by
  obtain ⟨a, rfl⟩ := hy
  rw [one_add_exp_neg, Ideal.div_coe (by positivity)]
  exact (IsReal.coe a).mul (isReal_one.mul (IsReal.coe _))

/-- On a real the logistic function is the quotient `1 / (1 + exp (−y))`: both are the real `(1 + e^{−y})⁻¹`. -/
theorem logistic_coe_eq_div (a : ℝ) :
    Ideal.logistic (a : EReal) = Ideal.div 1 (1 + Ideal.exp (-(a : EReal))) := by
  rw [Ideal.logistic_coe, one_add_exp_neg, Ideal.div_coe (by positivity), one_mul, one_div]

theorem isReal_logistic {y : EReal} (hy : IsReal y) : IsReal (Ideal.logistic y) := by
  obtain ⟨a, rfl⟩ := hy; rw [Ideal.logistic_coe]; exact IsReal.coe _

/-- The affine law on reals. -/
theorem affine_coe (a μ r γ β : ℝ) :
    (a : EReal) * ((γ : EReal) * (r : EReal)) + ((β : EReal) - (μ : EReal) * ((γ : EReal) * (r : EReal)))
      = ((a : EReal) - (μ : EReal)) * (r : EReal) * (γ : EReal) + (β : EReal) := by
  simp only [← EReal.coe_mul, ← EReal.coe_sub, ← EReal.coe_add]
  congr 1; ring

/-- THE AFFINE LAW: scaling by `γ·r` and shifting by `β − μ·(γ·r)` is centring at `μ`, scaling by `r`, then by `γ`, and
    shifting by `β` — for real numbers. -/
theorem affine {a μ r γ β : EReal} (ha : IsReal a) (hμ : IsReal μ) (hr : IsReal r) (hγ : IsReal γ) (hβ : IsReal β) :
    a * (γ * r) + (β - μ * (γ * r)) = (a - μ) * r * γ + β := by
  obtain ⟨a, rfl⟩ := ha; obtain ⟨μ, rfl⟩ := hμ; obtain ⟨r, rfl⟩ := hr; obtain ⟨γ, rfl⟩ := hγ; obtain ⟨β, rfl⟩ := hβ
  exact affine_coe a μ r γ β

/-- A binary32 pattern with sign bit clear and exponent field neither all zeros nor all ones denotes a positive
    real: `(2^23 + fraction) · 2^(exponent − 127 − 23)`. -/
theorem ofBits_pos_of_normal (b : BitVec 32) (hs : (b.extractLsb' 31 1 == 1#1) = false)
    (h1 : (b.extractLsb' 23 8).toNat ≠ 255) (h0 : (b.extractLsb' 23 8).toNat ≠ 0) :
    ∃ r : ℝ, 0 < r ∧ Ideal.ofBits .f32 b = (r : EReal) := by
  refine ⟨(1 : ℝ) * ((2 ^ 23 + (b.extractLsb' 0 23).toNat : ℕ) : ℝ) * (2 : ℝ) ^ (((b.extractLsb' 23 8).toNat : Int) - (2 ^ (8 - 1) - 1) - 23), by positivity, ?_⟩
  show Ideal.ieee 8 23 b = _
  unfold Ideal.ieee
  simp only [hs]
  rw [if_neg (by simpa using h1), if_neg h0]
  simp

end Cert.Lib.RealNorm

end
-- ==== Proof.AttnLaw.lean ====
/-
  The law of one attention head on real entries: dividing each weight by the sum of the weights and then adding up
  the weighted value rows is adding up first and dividing once at the end.

  On the extended reals a quotient does not distribute over a sum in general (an infinite sum of weights, or a zero
  one, breaks it).  Where the query, key and value rows are real numbers it does:

  * every score is a real (a finite sum of products of reals, times the scale 2⁻³);
  * the top score, a maximum over 2048 reals started from −∞, is one of those reals;
  * every weight is the exponential of a real: a positive real, so the sum of the 2048 weights is a positive real R;
  * a quotient by the nonzero real R is a product with 1/R, and in ℝ
        ∑ s, (a s · R⁻¹) · v s  =  (∑ s, a s · v s) · R⁻¹.
-/
import proofs.«147144_j2259152797990_2_alg».proof.Proof.Attention
import proofs.«147144_j2259152797990_2_alg».proof.Proof.LibRealSum
import proofs.«147144_j2259152797990_2_alg».proof.Proof.LibRealNorm

noncomputable section

open scoped BigOperators

namespace Cert.Attn

open Idealize.ShloMosaic Idealize.ShloMosaic.ValueIdx Cert.Lib.RealSum Cert.Lib.RealNorm

/-- The scale word (sign clear, exponent field 124, fraction 0: the number 2⁻³) is a real. -/
theorem scale_real : IsReal scale := by
  obtain ⟨r, _, h⟩ := ofBits_pos_of_normal 0x3E000000#32 (by decide) (by decide) (by decide)
  exact ⟨r, h⟩

/-- The word the maxima start from (sign set, exponent field all ones, fraction 0) is −∞. -/
theorem negInf_eq_bot : negInf = ⊥ := by
  simp [negInf, Ideal.ofBits, Ideal.ieee]

/-- A maximum started from −∞ over a nonempty finite family of reals is a real: the first member met replaces −∞,
    and from then on it is a maximum of two reals. -/
theorem fold_max_bot_real {ι : Type*} (f : ι → EReal) (hf : ∀ i, IsReal (f i)) (S : Finset ι) (hS : S.Nonempty) :
    IsReal (S.fold max ⊥ f) := by
  classical
  induction S using Finset.induction_on with
  | empty => exact absurd hS Finset.not_nonempty_empty
  | insert a S ha ih =>
    rw [Finset.fold_insert ha]
    rcases S.eq_empty_or_nonempty with rfl | hne
    · rw [Finset.fold_empty, max_bot_right]; exact hf a
    · exact (hf a).max (ih hne)

section Rows

variable (q : Fin 64 → EReal) (kk : Fin 2048 → Fin 64 → EReal)
  (hq : ∀ e, IsReal (q e)) (hk : ∀ s e, IsReal (kk s e))

include hq hk

/-- A score is a finite sum of products of reals, times the real scale. -/
theorem rowScore_real (s : Fin 2048) : IsReal (rowScore q kk s) :=
  (IsReal.sum _ _ fun e _ => (hq e).mul (hk s e)).mul scale_real

/-- The top score — a maximum over 2048 reals started from −∞ — is a real. -/
theorem rowTop_real : IsReal (rowTop q kk) := by
  unfold rowTop
  rw [negInf_eq_bot]
  exact fold_max_bot_real _ (rowScore_real q kk hq hk) _ ⟨0, Finset.mem_univ _⟩

/-- A weight is the exponential of a real: a positive real. -/
theorem rowWeight_pos (s : Fin 2048) : ∃ r : ℝ, 0 < r ∧ rowWeight q kk s = (r : EReal) := by
  obtain ⟨a, ha⟩ := isReal_sub (rowScore_real q kk hq hk s) (rowTop_real q kk hq hk)
  exact ⟨Real.exp a, Real.exp_pos a, by rw [rowWeight, ha]; rfl⟩

/-- The sum of the 2048 weights is a positive real. -/
theorem sumWeight_pos : ∃ r : ℝ, 0 < r ∧ (∑ s : Fin 2048, rowWeight q kk s) = (r : EReal) := by
  choose a ha0 ha using rowWeight_pos q kk hq hk
  refine ⟨∑ s : Fin 2048, a s, Finset.sum_pos (fun s _ => ha0 s) ⟨0, Finset.mem_univ _⟩, ?_⟩
  rw [coe_sum]
  exact Finset.sum_congr rfl fun s _ => ha s

end Rows

/-- THE LAW: on real rows, the quotient taken weight by weight before the sum is the quotient taken once after it. -/
theorem attendEach_eq_attend (q : Fin 64 → EReal) (kk vv : Fin 2048 → Fin 64 → EReal)
    (hq : ∀ e, IsReal (q e)) (hk : ∀ s e, IsReal (kk s e)) (hv : ∀ s e, IsReal (vv s e)) (d : Fin 64) :
    attendEach q kk vv d = attend q kk vv d := by
  -- real witnesses: the weights a s > 0, their sum R > 0, the value column v s
  choose a _ ha using rowWeight_pos q kk hq hk
  obtain ⟨R, hR0, hR⟩ := sumWeight_pos q kk hq hk
  choose v hv' using fun s => hv s d
  unfold attendEach attend
  rw [hR, Ideal.div_coe hR0.ne']
  simp only [Ideal.div_coe hR0.ne', ha, hv', ← EReal.coe_mul, ← coe_sum]
  -- the law in ℝ
  refine congrArg _ ?_
  rw [Finset.sum_mul]
  exact Finset.sum_congr rfl fun s _ => by ring

/-- A projected entry of real arrays is a real: a finite sum of products of reals. -/
theorem proj_real (x : SX.Idx → EReal) (w : SW.Idx → EReal) (hx : ∀ i, IsReal (x i)) (hw : ∀ i, IsReal (w i))
    (b : Fin 8) (t : Fin 2048) (d : Fin 64) : IsReal (proj x w b t d) :=
  IsReal.sum _ _ fun c _ => (hx _).mul (hw _)

end Cert.Attn

end
-- ==== Proof.LibRowSoftmax.lean ====
/-
  The shifted softmax along the rows of an `[A, B]` array on the extended reals, optionally after one entry per row is
  overwritten — for any sizes.

  A row is a family `x : Fin B → EReal`; a row's label is a 32-bit word `g`.

  * `marked v g x` is the row with the entry of the labelled column replaced by `v`: column `k` is the labelled one
    when the word of `k` is `g`.
  * `softmax m₀ y` is the softmax of a row `y` in the shifted form: with `M` the maximum of the row (the fold of
    `max` over the columns, started from `m₀`), entry `q` is `exp (y q − M) / ∑ k, exp (y k − M)`.
  * `ofRows v m₀ x g` is the whole array: entry `(r, q)` is `softmax m₀ (marked v (g r) (row r of x)) q`.
  * `max_rowMax`: a maximum started from `m₀` is at least `m₀` (a second `max` with `m₀` changes nothing).
  * `softmax_block_apply` reads a tiled unit's spelling of the softmax of a block at an entry: the row maximum and
    the row sum are reductions kept as a column `[A, 1]` and spread back along the rows.

  Nothing here needs the entries to be finite.
-/
import proofs.«147144_j2259152797990_2_alg».proof.Proof.LibRowLayer

noncomputable section

open scoped BigOperators

namespace Cert.RowSoftmax

open Idealize.ShloMosaic Idealize.ShloMosaic.ValueIdx Cert.RowLayer

variable {B : ℕ}

/-- The row `x` with the entry of the column whose word is `g` replaced by `v`. -/
def marked (v : EReal) (g : BitVec 32) (x : Fin B → EReal) : Fin B → EReal :=
  fun k => if BitVec.ofNat 32 k.val = g then v else x k

/-- The maximum of a row, started from `m₀`. -/
def rowMax (m₀ : EReal) (y : Fin B → EReal) : EReal := (Finset.univ : Finset (Fin B)).fold max m₀ y

/-- The shifted softmax of a row. -/
def softmax (m₀ : EReal) (y : Fin B → EReal) (q : Fin B) : EReal :=
  Ideal.div (Ideal.exp (y q - rowMax m₀ y)) (∑ k : Fin B, Ideal.exp (y k - rowMax m₀ y))

/-- The whole result: entry `(r, q)` is the softmax of row `r`, marked at the column its label `g r` names, at `q`. -/
def ofRows {A : ℕ} (v m₀ : EReal) (x : (⟨2, ![A, B]⟩ : Shape).Idx → EReal) (g : (⟨1, ![A]⟩ : Shape).Idx → BitVec 32) :
    (⟨2, ![A, B]⟩ : Shape).Idx → EReal :=
  fun i => softmax m₀ (marked v (g (ix1 (i 0))) (fun k => x (ix2 (i 0) k))) (i 1)

/-- A maximum started from `m₀` is at least `m₀`, so taking the maximum with `m₀` once more changes nothing. -/
theorem max_rowMax (m₀ : EReal) (y : Fin B → EReal) : max m₀ (rowMax m₀ y) = rowMax m₀ y :=
  max_eq_right ((Finset.le_fold_max m₀).2 (Or.inl le_rfl))

/-- THE TILED UNIT'S SOFTMAX OF A BLOCK `a : [A, B]`, read at `(p, q)`: the exponentials of the entries less the row
    maximum, divided by their row sum — both reductions kept as a column `[A, 1]` and spread back along the rows. -/
theorem softmax_block_apply {A : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    divf (exp (subf a (broadcastTo ⟨2, ![A, B]⟩ (shapeCast ⟨2, ![A, 1]⟩ (multiReduction .maximumf [1] ⟨1, ![A]⟩ a accM h hφ hM) hc) hb)))
        (broadcastTo ⟨2, ![A, B]⟩ (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc) hb) (ix2 p q)
      = softmax (Ideal.ofBits .f32 accM) (fun k => a (ix2 p k)) q := by
  have hm : ∀ c : Fin B,
      broadcastTo ⟨2, ![A, B]⟩ (shapeCast ⟨2, ![A, 1]⟩ (multiReduction .maximumf [1] ⟨1, ![A]⟩ a accM h hφ hM) hc) hb (ix2 p c)
        = rowMax (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc) hb (ix2 p q)
        = ∑ k : Fin B, Ideal.exp (a (ix2 p k) - rowMax (Ideal.ofBits .f32 accM) (fun k => a (ix2 p k))) :=
    (broadcastTo_a1_ab_apply _ hb p q).trans
      ((shapeCast_a_a1_apply _ hc p 0).trans ((rowSum_apply _ accA h hφ hA p).trans
        (Finset.sum_congr rfl fun k _ => congrArg (fun m => Ideal.exp (a (ix2 p k) - m)) (hm k))))
  show Ideal.div (Ideal.exp (a (ix2 p q) - _)) _ = _
  rw [hm q, hs]
  rfl

end Cert.RowSoftmax

end
-- ==== Proof.RefAttention.lean ====
/-
  The reference program computes the attention head of the specification.

  The program is read one operation at a time at an index split into its coordinates (b, t, ·):

  * its three first products are the projected rows: entry (b, t, d) is ∑ c, x (b, t, c) · w (c, d);
  * the batched product of queries with keys over the 64 axis, times the broadcast scale, is the score of key s
    against query (b, t);
  * the maximum along the last axis, started from −∞, is the row's top score; the program then takes the maximum
    with −∞ once more, which changes nothing (a maximum started from −∞ is at least −∞);
  * the exponential of the score less the top (the top kept as a column and spread back along the keys) is the weight;
  * the sum along the last axis from the zero word is the sum of the weights;
  * the quotient, weight by weight, by that sum (again a column spread back) is the softmax;
  * the last batched product, over the 2048 keys, adds up the value rows with those quotients as coefficients.

  That is the specification's row with the quotient taken first; the arguments being real, it is the row with the sum
  taken first and the quotient last (the law of the head on real entries).
-/
import proofs.«147144_j2259152797990_2_alg».proof.Proof.Gen.ReferenceIdeal.Read
import proofs.«147144_j2259152797990_2_alg».proof.Proof.Attention
import proofs.«147144_j2259152797990_2_alg».proof.Proof.AttnLaw
import proofs.«147144_j2259152797990_2_alg».proof.Proof.LibRowSoftmax

noncomputable section

open scoped BigOperators

namespace Cert.ReferenceIdeal.RefValue

open Cert.ReferenceIdeal Cert.ReferenceIdeal.Read Idealize.ShloMosaic Idealize.ShloMosaic.ValueIdx Cert.Attn
  Cert.Lib.RealSum

/-! ## A reduction along the last axis of a rank-3 array, read at (p, q) -/

/-- Position (p, q) with the last coordinate k put back: the index a reduction over axis 2 of `[a, b, c]` reads. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun ax => Fin.ext (by
    match ax with
    | ⟨0, _⟩ => rfl
    | ⟨1, _⟩ => rfl
    | ⟨2, _⟩ => rfl)

/-- The host's maximum along the last axis, at (p, q): the fold of `max` over k from the initial value. -/
theorem hostLastMax_apply {a b c : ℕ} {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.maximumf x init h' hu (ix2 p q)
      = (Finset.univ : Finset (Fin c)).fold max (init (Shape.Idx.first hu)) (fun k => x (ix3 p q k)) :=
  (Host.reduce_eq_fold_single FloatOps.maximumf x init h' h hu (ix2 p q)).trans
    (congrArg ((Finset.univ : Finset (Fin c)).fold max (init (Shape.Idx.first hu)))
      (funext fun k => congrArg x (lift_last h p q k)))

/-! ## The printed operations' index maps, at coordinates -/

theorem lidx_v0 (b : Fin 8) (t : Fin 2048) (d : Fin 64) (k : Fin 1024) : lidx_main_v0 (ix3 b t d) k = ix3 b t k :=
  funext fun a => by match a with | ⟨0, _⟩ => rfl | ⟨1, _⟩ => rfl | ⟨2, _⟩ => rfl
theorem ridx_v0 (b : Fin 8) (t : Fin 2048) (d : Fin 64) (k : Fin 1024) : ridx_main_v0 (ix3 b t d) k = ix2 k d :=
  funext fun a => by match a with | ⟨0, _⟩ => rfl | ⟨1, _⟩ => rfl
theorem lidx_v1 (b : Fin 8) (t : Fin 2048) (d : Fin 64) (k : Fin 1024) : lidx_main_v1 (ix3 b t d) k = ix3 b t k :=
  funext fun a => by match a with | ⟨0, _⟩ => rfl | ⟨1, _⟩ => rfl | ⟨2, _⟩ => rfl
theorem ridx_v1 (b : Fin 8) (t : Fin 2048) (d : Fin 64) (k : Fin 1024) : ridx_main_v1 (ix3 b t d) k = ix2 k d :=
  funext fun a => by match a with | ⟨0, _⟩ => rfl | ⟨1, _⟩ => rfl
theorem lidx_v2 (b : Fin 8) (t : Fin 2048) (d : Fin 64) (k : Fin 1024) : lidx_main_v2 (ix3 b t d) k = ix3 b t k :=
  funext fun a => by match a with | ⟨0, _⟩ => rfl | ⟨1, _⟩ => rfl | ⟨2, _⟩ => rfl
theorem ridx_v2 (b : Fin 8) (t : Fin 2048) (d : Fin 64) (k : Fin 1024) : ridx_main_v2 (ix3 b t d) k = ix2 k d :=
  funext fun a => by match a with | ⟨0, _⟩ => rfl | ⟨1, _⟩ => rfl
/-- Queries against keys: the query row is (b, t, ·), the key row (b, s, ·). -/
theorem lidx_v3 (b : Fin 8) (t s : Fin 2048) (k : Fin 64) : lidx_main_v3 (ix3 b t s) k = ix3 b t k :=
  funext fun a => by match a with | ⟨0, _⟩ => rfl | ⟨1, _⟩ => rfl | ⟨2, _⟩ => rfl
theorem ridx_v3 (b : Fin 8) (t s : Fin 2048) (k : Fin 64) : ridx_main_v3 (ix3 b t s) k = ix3 b s k :=
  funext fun a => by match a with | ⟨0, _⟩ => rfl | ⟨1, _⟩ => rfl | ⟨2, _⟩ => rfl
/-- A row's value kept as a column and spread back along the keys is read at the row. -/
theorem idx_v9_v10 (b : Fin 8) (t s : Fin 2048) : idx_main_v9 (idx_main_v10 (ix3 b t s)) = ix2 b t :=
  funext fun a => by match a with | ⟨0, _⟩ => rfl | ⟨1, _⟩ => rfl
theorem idx_v14_v15 (b : Fin 8) (t s : Fin 2048) : idx_main_v14 (idx_main_v15 (ix3 b t s)) = ix2 b t :=
  funext fun a => by match a with | ⟨0, _⟩ => rfl | ⟨1, _⟩ => rfl
theorem idx_v13 (b : Fin 8) (t s : Fin 2048) : idx_main_v13 (ix2 b t) s = ix3 b t s :=
  funext fun a => by match a with | ⟨0, _⟩ => rfl | ⟨1, _⟩ => rfl | ⟨2, _⟩ => rfl
/-- Softmax rows against value rows: coefficient (b, t, s), value entry (b, s, d). -/
theorem lidx_v17 (b : Fin 8) (t : Fin 2048) (d : Fin 64) (s : Fin 2048) : lidx_main_v17 (ix3 b t d) s = ix3 b t s :=
  funext fun a => by match a with | ⟨0, _⟩ => rfl | ⟨1, _⟩ => rfl | ⟨2, _⟩ => rfl
theorem ridx_v17 (b : Fin 8) (t : Fin 2048) (d : Fin 64) (s : Fin 2048) : ridx_main_v17 (ix3 b t d) s = ix3 b s d :=
  funext fun a => by match a with | ⟨0, _⟩ => rfl | ⟨1, _⟩ => rfl | ⟨2, _⟩ => rfl

/-! ## The operations, in program order -/

section Stages

variable (x0 : (⟨S8x2048x1024, .f32⟩ : BufTy).Contents (Elt Ideal))
  (x1 x2 x3 : (⟨S1024x64, .f32⟩ : BufTy).Contents (Elt Ideal))

/-- The first product is the query projection. -/
theorem queries_at (b : Fin 8) (t : Fin 2048) (d : Fin 64) :
    val_main_v0 (F := Ideal) x0 x1 (ix3 b t d) = proj x0 x1 b t d := by
  rw [val_main_v0_apply]
  exact Finset.sum_congr rfl fun k _ => by rw [lidx_v0, ridx_v0]

/-- The second product is the key projection. -/
theorem keys_at (b : Fin 8) (t : Fin 2048) (d : Fin 64) :
    val_main_v1 (F := Ideal) x0 x2 (ix3 b t d) = proj x0 x2 b t d := by
  rw [val_main_v1_apply]
  exact Finset.sum_congr rfl fun k _ => by rw [lidx_v1, ridx_v1]

/-- The third product is the value projection. -/
theorem values_at (b : Fin 8) (t : Fin 2048) (d : Fin 64) :
    val_main_v2 (F := Ideal) x0 x3 (ix3 b t d) = proj x0 x3 b t d := by
  rw [val_main_v2_apply]
  exact Finset.sum_congr rfl fun k _ => by rw [lidx_v2, ridx_v2]

/-- Queries times keys over the 64 axis, times the broadcast scale: the score of key `s` for query (b, t). -/
theorem score_at (b : Fin 8) (t s : Fin 2048) :
    val_main_v5 (F := Ideal) x0 x1 x2 (ix3 b t s) = rowScore (proj x0 x1 b t) (fun s' => proj x0 x2 b s') s := by
  rw [val_main_v5_apply, val_main_v3_apply, val_main_v4_apply, val_main_cst_apply]
  show (∑ k : Fin 64, _ * _) * Ideal.ofBits .f32 0x3E000000#32 = _
  unfold rowScore scale
  refine congrArg (· * Ideal.ofBits .f32 0x3E000000#32) (Finset.sum_congr rfl fun k _ => ?_)
  rw [lidx_v3, ridx_v3, queries_at, keys_at]

/-- The maximum along the keys from −∞, then once more with −∞: the row's top score. -/
theorem top_at (b : Fin 8) (t : Fin 2048) :
    val_main_v8 (F := Ideal) x0 x1 x2 (ix2 b t) = rowTop (proj x0 x1 b t) (fun s => proj x0 x2 b s) := by
  have h6 : val_main_v6 (F := Ideal) x0 x1 x2 (ix2 b t)
      = (Finset.univ : Finset (Fin 2048)).fold max negInf (fun s => val_main_v5 (F := Ideal) x0 x1 x2 (ix3 b t s)) :=
    hostLastMax_apply (val_main_v5 (F := Ideal) x0 x1 x2) (val_main_cst_0 (F := Ideal))
      Facts₀.reducesTo_S8x2048x2048_S8x2048_d2 (by decide) Facts₀.h_S_ b t
  rw [val_main_v8_apply, val_main_v7_apply, val_main_cst_1_apply, h6]
  refine (Cert.RowSoftmax.max_rowMax negInf _).trans ?_
  unfold rowTop
  exact congrArg (fun f => (Finset.univ : Finset (Fin 2048)).fold max negInf f) (funext fun s => score_at x0 x1 x2 b t s)

/-- The exponential of the score less the top: the weight of key `s`. -/
theorem weight_at (b : Fin 8) (t s : Fin 2048) :
    val_main_v12 (F := Ideal) x0 x1 x2 (ix3 b t s) = rowWeight (proj x0 x1 b t) (fun s' => proj x0 x2 b s') s := by
  rw [val_main_v12_apply, val_main_v11_apply, val_main_v10_apply, val_main_v9_apply, idx_v9_v10, score_at, top_at]
  rfl

/-- The sum along the keys from the zero word: the sum of the weights. -/
theorem weightSum_at (b : Fin 8) (t : Fin 2048) :
    val_main_v13 (F := Ideal) x0 x1 x2 (ix2 b t)
      = ∑ s : Fin 2048, rowWeight (proj x0 x1 b t) (fun s' => proj x0 x2 b s') s := by
  rw [val_main_v13_apply, val_main_cst_2_apply, Ideal.ofBits_def, Ideal.ofBits_zero_f32, zero_add]
  exact Finset.sum_congr rfl fun s _ => by rw [idx_v13, weight_at]

/-- The quotient weight by weight: the softmax of the scores. -/
theorem softmax_at (b : Fin 8) (t s : Fin 2048) :
    val_main_v16 (F := Ideal) x0 x1 x2 (ix3 b t s)
      = Ideal.div (rowWeight (proj x0 x1 b t) (fun s' => proj x0 x2 b s') s)
          (∑ s'' : Fin 2048, rowWeight (proj x0 x1 b t) (fun s' => proj x0 x2 b s') s'') := by
  rw [val_main_v16_apply, val_main_v15_apply, val_main_v14_apply, idx_v14_v15, weight_at, weightSum_at]
  rfl

/-- The last product adds up the value rows with the softmax as coefficients: the attended row, quotient first. -/
theorem result_at (b : Fin 8) (t : Fin 2048) (d : Fin 64) :
    val_main_v17 (F := Ideal) x0 x1 x2 x3 (ix3 b t d)
      = attendEach (proj x0 x1 b t) (fun s => proj x0 x2 b s) (fun s => proj x0 x3 b s) d := by
  rw [val_main_v17_apply]
  unfold attendEach
  exact Finset.sum_congr rfl fun s _ => by rw [lidx_v17, ridx_v17, softmax_at, values_at]

end Stages

/-- THE REFERENCE IS THE SPECIFICATION, on real arguments. -/
theorem ref_is_out (x0 : (⟨S8x2048x1024, .f32⟩ : BufTy).Contents (Elt Ideal))
    (x1 x2 x3 : (⟨S1024x64, .f32⟩ : BufTy).Contents (Elt Ideal))
    (h0 : ∀ i, IsReal (x0 i)) (h1 : ∀ i, IsReal (x1 i)) (h2 : ∀ i, IsReal (x2 i)) (h3 : ∀ i, IsReal (x3 i)) :
    Cert.ReferenceIdeal.Read.val_main_v17 (F := Ideal) x0 x1 x2 x3 = Cert.Attn.out x0 x1 x2 x3 := by
  funext i
  obtain ⟨b, t, d, rfl⟩ : ∃ (b : Fin 8) (t : Fin 2048) (d : Fin 64), i = ix3 b t d := ⟨i 0, i 1, i 2, eq_ix3 i⟩
  rw [result_at, out_ix3]
  exact attendEach_eq_attend _ _ _ (fun e => proj_real x0 x1 h0 h1 b t e) (fun s e => proj_real x0 x2 h0 h2 b s e)
    (fun s e => proj_real x0 x3 h0 h3 b s e) d

end Cert.ReferenceIdeal.RefValue

end
-- ==== Proof.FiniteInputs.lean ====
/-
  From the printed finiteness predicate to "every entry is a real number".

  The predicate is the conjunction, over the four argument arrays, of "every entry x has |x| < +∞": each array is
  compared entry by entry with the broadcast word of +∞, the one-bit results are reduced by `and` over all axes from the
  constant 1, and the four one-bit results are joined by `and`.  The claim says the final bit is 1.  Read backwards:
  an `and` that is 1 had both operands 1; a reduction by `and` over all axes that is 1 met a 1 at every entry; and
  an entry x with max x (−x) < ⊤ is neither ⊤ (then max x (−x) = ⊤) nor ⊥ (then −x = ⊤): it is a real.
-/
import proofs.«147144_j2259152797990_2_alg».proof.Pre_finite_inputs
import proofs.«147144_j2259152797990_2_alg».proof.Proof.Gen.Pre_finite_inputs
import proofs.«147144_j2259152797990_2_alg».proof.Proof.LibRealSum
import Idealize.ShloMosaic.Lib.ReduceAll
import Idealize.ShloMosaic.Lib.ValueIdx

noncomputable section

namespace Cert.FiniteInputs

open Idealize.ShloMosaic Cert.Pre_finite_inputs Cert.Lib.RealSum

/-- The word the entries are compared with (sign clear, exponent field all ones, fraction 0) is +∞. -/
theorem posInf_eq_top : Ideal.ofBits .f32 0x7F800000#32 = ⊤ := by
  simp [Ideal.ofBits, Ideal.ieee]

/-- An entry whose absolute value compares below +∞ is a real: at ⊤ the absolute value is ⊤, at ⊥ it is −⊥ = ⊤. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : IsReal x := by
  have h' : BitVec.ofBool (decide (max x (-x) < Ideal.ofBits .f32 0x7F800000#32)) = 1#1 := h
  rw [posInf_eq_top] at h'
  induction x using EReal.rec with
  | bot => simp at h'
  | coe r => exact IsReal.coe r
  | top => simp at h'

/-- The scalar shape has one index. -/
instance : Subsingleton S_.Idx := ⟨fun a b => funext fun d => d.elim0⟩

/-- THE PREDICATE READ BACK: if the printed predicate holds of four arrays, every entry of each is a real. -/
theorem real_of_pre [Cert.Pre_finite_inputs.Facts] (a0 : (⟨S8x2048x1024, .f32⟩ : BufTy).Contents (Elt Ideal))
    (a1 a2 a3 : (⟨S1024x64, .f32⟩ : BufTy).Contents (Elt Ideal))
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  -- the one element of the result, with the printed chain in view
  have e := congrFun h ValueIdx.ix0
  dsimp only [Cert.Pre_finite_inputs.fn, Cert.Pre_finite_inputs.fn_part1] at e
  -- the three joins by `and`, outermost first
  obtain ⟨e012, e3⟩ := IntOp.andi_eq_one.1 e
  obtain ⟨e01, e2⟩ := IntOp.andi_eq_one.1 e012
  obtain ⟨e0, e1⟩ := IntOp.andi_eq_one.1 e01
  -- each reduction over all axes, then the entry's comparison
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i)⟩

end Cert.FiniteInputs

end
-- ==== Proof.lean ====
/-
  The certificate of one head of softmax attention: a fused tiled kernel against its array-program reference.

  THE KERNEL sets the three weight matrices side by side on the host and then, for each of the 8 batches, in one tiled
  call: projects the batch's 2048 rows onto the 192 joined columns into a scratch array; reads the key and value
  columns back; and for each tile of 512 query rows computes the scores against all 2048 keys (times 1/8), their row
  maximum, the exponentials of the differences, their row sum, the weighted sum of the value rows, and the quotient of
  that sum by the row sum, which it stores.  THE REFERENCE projects queries, keys and values separately, takes the
  softmax of the scaled scores along the keys — each exponential divided by the row sum — and then the weighted sum of
  the value rows.

  On the extended reals the two differ in one place only: the kernel divides the weighted sum by the sum of the
  weights, the reference divides each weight first.  A quotient distributes over a finite sum when the divisor is a
  nonzero real and the terms are reals; the precondition (every input finite) makes every projected entry, every
  score, every row maximum and every weight a real, and the sum of the weights a positive real.  Everything else —
  the format changes, the tiling, the order of the sums, the joined weight matrix, the matrix unit against the host's
  contraction — is the identity on the extended reals.

  The three frames: the kernel's (at the word level and idealized) by running its body symbolically once at a
  generic grid point and launching it over the grid; the reference's is its run with the result dropped.  The
  idealization rewrote nothing, so there is nothing to preserve.
-/
import proofs.«147144_j2259152797990_2_alg».proof.Defs
import proofs.«147144_j2259152797990_2_alg».proof.Proof.Gen.Kernel
import proofs.«147144_j2259152797990_2_alg».proof.Proof.Gen.KernelIdeal
import proofs.«147144_j2259152797990_2_alg».proof.Proof.Gen.ReferenceIdeal
import proofs.«147144_j2259152797990_2_alg».proof.Proof.Gen.ReferenceIdeal.Run
import proofs.«147144_j2259152797990_2_alg».proof.Proof.Gen.ReferenceIdeal.Read
import proofs.«147144_j2259152797990_2_alg».proof.Proof.Gen.Pre_finite_inputs
import proofs.«147144_j2259152797990_2_alg».proof.Proof.FrameB
import proofs.«147144_j2259152797990_2_alg».proof.Proof.FrameI
import proofs.«147144_j2259152797990_2_alg».proof.Proof.PointValue
import proofs.«147144_j2259152797990_2_alg».proof.Proof.FinalArray
import proofs.«147144_j2259152797990_2_alg».proof.Proof.RefAttention
import proofs.«147144_j2259152797990_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_kernel : Cert.frame_Kernel := fun m ρ _ => Cert.Kernel.Fr.frame m ρ

/-- So does the idealized kernel. -/
theorem frame_kernelIdeal : Cert.frame_KernelIdeal := fun m ρ _ => Cert.KernelIdeal.Fr.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs both programs end with the head's result: the kernel's result array by its run over the grid,
    the reference's by its run read one operation at a time and the law that exchanges the quotient and the sum. -/
theorem algebraic : Cert.algebraic_KernelIdeal_ReferenceIdeal := by
  intro m ρ m' ρ' hpre hagree
  refine ⟨fun c => Cert.Attn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Fr.run_out m ρ (fun c t r d => Cert.KernelIdeal.Fr.outsAt0_apply m c t r d), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.FiniteInputs.real_of_pre _ _ _ _ (hpre c)
  rw [(hagree c).1, (hagree c).2.1, (hagree c).2.2.1, (hagree c).2.2.2]
  exact (Cert.ReferenceIdeal.Read.val_main_v17_eq _ _ _ _).trans
    (Cert.ReferenceIdeal.RefValue.ref_is_out _ _ _ _ h0 h1 h2 h3)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
